-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1x1x1024x1024 .f32) (main_arg5 : FVec F S1x1x1024x1024 .f32) (main_arg6 : FVec F S1x1x1024x1024 .f32) (main_arg7 : FVec F S1024 .f32) (main_arg8 : FVec F S1024 .f32) (main_arg9 : FVec F S1024 .f32) (main_v13 : IVec S_ 1) (main_v16 : IVec S1x2048x2048 1) : IVec S_ 1 :=
  let main_c_5 : IVec S_ 1 := constantI S_ 1 1#1
  let main_v17 : IVec S_ 1 := (fun x v => Host.reduce IntOp.andi x v reducesTo_S1x2048x2048_S_d0_1_2 h_S_) main_v16 main_c_5
  let main_v18 : IVec S_ 1 := andi main_v13 main_v17
  let main_v19 : FVec F S1x1x1024x1024 .f32 := Host.absf main_arg4
  let main_cst_6 : FVec F S_ .f32 := constant S_ .f32 0x7F800000#32
  let main_v20 : FVec F S1x1x1024x1024 .f32 := broadcastInDim S1x1x1024x1024 ![] bcast_S_S1x1x1024x1024 main_cst_6
  let main_v21 : IVec S1x1x1024x1024 1 := cmpf .olt main_v19 main_v20
  let main_c_7 : IVec S_ 1 := constantI S_ 1 1#1
  let main_v22 : IVec S_ 1 := (fun x v => Host.reduce IntOp.andi x v reducesTo_S1x1x1024x1024_S_d0_1_2_3 h_S_) main_v21 main_c_7
  let main_v23 : IVec S_ 1 := andi main_v18 main_v22
  let main_v24 : FVec F S1x1x1024x1024 .f32 := Host.absf main_arg5
  let main_cst_8 : FVec F S_ .f32 := constant S_ .f32 0x7F800000#32
  let main_v25 : FVec F S1x1x1024x1024 .f32 := broadcastInDim S1x1x1024x1024 ![] bcast_S_S1x1x1024x1024 main_cst_8
  let main_v26 : IVec S1x1x1024x1024 1 := cmpf .olt main_v24 main_v25
  let main_c_9 : IVec S_ 1 := constantI S_ 1 1#1
  let main_v27 : IVec S_ 1 := (fun x v => Host.reduce IntOp.andi x v reducesTo_S1x1x1024x1024_S_d0_1_2_3 h_S_) main_v26 main_c_9
  let main_v28 : IVec S_ 1 := andi main_v23 main_v27
  let main_v29 : FVec F S1x1x1024x1024 .f32 := Host.absf main_arg6
  let main_cst_10 : FVec F S_ .f32 := constant S_ .f32 0x7F800000#32
  let main_v30 : FVec F S1x1x1024x1024 .f32 := broadcastInDim S1x1x1024x1024 ![] bcast_S_S1x1x1024x1024 main_cst_10
  let main_v31 : IVec S1x1x1024x1024 1 := cmpf .olt main_v29 main_v30
  let main_c_11 : IVec S_ 1 := constantI S_ 1 1#1
  let main_v32 : IVec S_ 1 := (fun x v => Host.reduce IntOp.andi x v reducesTo_S1x1x1024x1024_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S4x2048x1024 .f32) (main_arg3 : FVec F S1x2048x2048 .f32) (main_arg4 : FVec F S1x1x1024x1024 .f32) (main_arg5 : FVec F S1x1x1024x1024 .f32) (main_arg6 : FVec F S1x1x1024x1024 .f32) (main_arg7 : FVec F S1024 .f32) (main_arg8 : FVec F S1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1x2048x2048 .f32 := Host.absf main_arg3
  let main_cst_4 : FVec F S_ .f32 := constant S_ .f32 0x7F800000#32
  let main_v15 : FVec F S1x2048x2048 .f32 := broadcastInDim S1x2048x2048 ![] bcast_S_S1x2048x2048 main_cst_4
  let main_v16 : IVec S1x2048x2048 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 30
  | .vmem => 29
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x2048x2048, .f32⟩
  | .hbm, ⟨4, _⟩ => ⟨S1x1x1024x1024, .f32⟩
  | .hbm, ⟨5, _⟩ => ⟨S1x1x1024x1024, .f32⟩
  | .hbm, ⟨6, _⟩ => ⟨S1x1x1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .bf16⟩
  | .hbm, ⟨23, _⟩ => ⟨S4x2048x1024, .bf16⟩
  | .hbm, ⟨24, _⟩ => ⟨S8192x1024, .bf16⟩
  | .hbm, ⟨25, _⟩ => ⟨S4x2048x1024, .bf16⟩
  | .hbm, ⟨26, _⟩ => ⟨S8192x1024, .bf16⟩
  | .hbm, ⟨27, _⟩ => ⟨S4x2048x1024, .bf16⟩
  | .hbm, ⟨28, _⟩ => ⟨S1x2048x2048, .bf16⟩
  | .hbm, ⟨29, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x1024, .f32⟩
  | .local _ .vmem, ⟨27, _⟩ => ⟨S1x1024x1024, .f32⟩
  | .local _ .vmem, ⟨28, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 2, 4], ![false, false, false]⟩

def k3_cond2 (i : grid3.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_19 : BitVec 32 := 0#32
  let v28 : BitVec 1 := Scalar.cmpi .ne v27 c0_i32_19
  v28

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, true]

abbrev stage3_4 : Fin 2 → Memref sig .tc .vmem S1x1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

class Facts₀ : Prop where
  shapeCasts_S1x1x1024x1024_S1024x1024 : S1x1x1024x1024.ShapeCasts S1024x1024
  bitsLt_bf16_f32 : FTy.bits .bf16 < FTy.bits .f32
  shapeCasts_S4x2048x1024_S8192x1024 : S4x2048x1024.ShapeCasts S8192x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x1024.size a ≤ S4x2048x1024.size a
  hwx3_0 : ∀ i : grid3.Coords, EltTy.bits .bf16 = 32 ∨ (Rect.block (s := S4x2048x1024) S1x1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S4x2048x1024.size a
  hwx3_1 : ∀ i : grid3.Coords, EltTy.bits .bf16 = 32 ∨ (Rect.block (s := S4x2048x1024) S1x512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S4x2048x1024.size a
  hwx3_2 : ∀ i : grid3.Coords, EltTy.bits .bf16 = 32 ∨ (Rect.block (s := S4x2048x1024) S1x512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x512.size a ≤ S1x2048x2048.size a
  hwx3_3 : ∀ i : grid3.Coords, EltTy.bits .bf16 = 32 ∨ (Rect.block (s := S1x2048x2048) S1x1024x512.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x1024.size a ≤ S4x2048x1024.size a
  hwx3_4 : ∀ i : grid3.Coords, EltTy.bits .f32 = 32 ∨ (Rect.block (s := S4x2048x1024) S1x1024x1024.size (cc3_transform_4 i) (hinb3_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1x1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x1024x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1x1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1x2048x2048 : Shape := ⟨3, ![1, 2048, 2048]⟩
abbrev S1x1x1024x1024 : Shape := ⟨4, ![1, 1, 1024, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S4x2048x2048 : Shape := ⟨3, ![4, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1x2048x2048, .f32⟩
  | .hbm, ⟨4, _⟩ => ⟨S1x1x1024x1024, .f32⟩
  | .hbm, ⟨5, _⟩ => ⟨S1x1x1024x1024, .f32⟩
  | .hbm, ⟨6, _⟩ => ⟨S1x1x1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x1024, .f32⟩
  | .hbm, ⟨45, _⟩ => ⟨S_, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call4_cst : Ref sig .tc := ⟨.hbm, 45, rfl⟩
abbrev main_call4_v0 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  shapeCasts_S1x1x1024x1024_S1024x1024 : S1x1x1024x1024.ShapeCasts S1024x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  bcast_S_S4x2048x2048 : S_.BroadcastsInDim S4x2048x2048 (![] : Fin 0 → Fin S4x2048x2048.rank)
  bcast_S1x2048x2048_S4x2048x2048_0_1_2 : S1x2048x2048.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.ProjRegionsW.lean ====
/- The three projection regions of the program, each at the buffer contents it is entered with: for every
   projection kernel, the block each window shows at a grid point, the buffer its single whole store leaves in the
   output window as a function of the three input blocks, the Hoare triple of the body over whole staging
   buffers, the per-core proof data of its pipeline, and the body obligation at every grid point.

   Each kernel computes relu(x · W + b) on a tile of 1024 rows: it reads the tile of x, the whole of W and the
   bias row, reads the output buffer once without using the value, and overwrites the whole output buffer. So
   the output buffer after the body is a closed function of the three input blocks at the point, and each input
   buffer holds its window's block at every point, whether or not a transfer refilled it there (W and the bias
   row have a constant block index, so an unrefilled buffer still holds the right block). -/
import proofs.«147016_j57062935495338_2_alg».proof.Proof.Gen.Kernel.Launch
import proofs.«147016_j57062935495338_2_alg».proof.Proof.Gen.Kernel.Skeleton
import proofs.«147016_j57062935495338_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 1024 × 1024 extents is decided by structural recursion, one step per
-- coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: every statement below is at this parameter
variable (V : (c : Dev nD) → (b : Ref sig .tc) → Buf (Elt F) ((c : Thread nD τ).loc b))

/-! # Region 0: the first projection, relu(x · W + b) on 8 row tiles, at the entry contents `V` -/

/-! ## The windows' blocks -/

/-- The block window `w` shows at grid point `t`: the window's view at `t` read off its array as the region
    finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x: its buffer holds the block of the point at every point, for any proof data whose array is the
    entry contents and whose body leaves the block in place. The window is an input, never idle and never cut;
    where no transfer refilled the buffer the block index has not moved, so the earlier block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: one block for the whole grid, refilled at the first point only; the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: one block for the whole grid, refilled at the first point only; the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 1024 rectangle: every access of the x tile, of W and of the output buffer. -/
abbrev r0_blk : Rect S1024x1024 := Rect.unit (s := S1024x1024) ![0, 0] S1024x1024.size inb_S1024x1024_S1024x1024_0_0
/-- The whole 1 × 1024 rectangle: the read of the bias row. -/
abbrev r0_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out0_3 (x0 : Vec F S1024x1024 .f32) (x1 : Vec F S1024x1024 .bf16) (x2 : Vec F S1x1024 .f32) : Vec F S1024x1024 .bf16 :=
  View.canon [⟨r0_blk, k0_pay1 (View.ld x0 r0_blk) (View.ld x1 r0_blk) (View.ld x2 r0_row)⟩]

/-- The single store covers the buffer: its rectangle is the whole shape. -/
theorem cover0_3 (p0 : Vec F S1024x1024 .bf16) (y : S1024x1024.Idx) :
    ∃ pc ∈ ([⟨r0_blk, p0⟩] : List (View.Piece (Elt F) S1024x1024 .bf16)), y ∈ pc.1.set :=
  View.cover_of_tiled [⟨r0_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out0_3 x0 x1 x2`: three whole loads,
    a load of the output buffer whose value is dropped, one whole store. The grid coordinate is not read. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first projection's pipeline on core `c`: the arrays as the region finds them; after the
    body at point `t` each input buffer at its block and the output buffer at `out0_3` of the three input
    blocks; the invariant that of a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input buffer holds its window's block at every point, refilled there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is entered with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second projection, relu(x · W + b) on 8 row tiles, at the entry contents `V` -/

/-! ## The windows' blocks -/

/-- The block window `w` shows at grid point `t`: the window's view at `t` read off its array as the region
    finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of x: its buffer holds the block of the point at every point, for any proof data whose array is the
    entry contents and whose body leaves the block in place. The window is an input, never idle and never cut;
    where no transfer refilled the buffer the block index has not moved, so the earlier block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix: one block for the whole grid, refilled at the first point only; the same statement. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: one block for the whole grid, refilled at the first point only; the same statement. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1024 × 1024 rectangle: every access of the x tile, of W and of the output buffer. -/
abbrev r1_blk : Rect S1024x1024 := Rect.unit (s := S1024x1024) ![0, 0] S1024x1024.size inb_S1024x1024_S1024x1024_0_0
/-- The whole 1 × 1024 rectangle: the read of the bias row. -/
abbrev r1_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out1_3 (x0 : Vec F S1024x1024 .f32) (x1 : Vec F S1024x1024 .bf16) (x2 : Vec F S1x1024 .f32) : Vec F S1024x1024 .bf16 :=
  View.canon [⟨r1_blk, k1_pay1 (View.ld x0 r1_blk) (View.ld x1 r1_blk) (View.ld x2 r1_row)⟩]

/-- The single store covers the buffer: its rectangle is the whole shape. -/
theorem cover1_3 (p0 : Vec F S1024x1024 .bf16) (y : S1024x1024.Idx) :
    ∃ pc ∈ ([⟨r1_blk, p0⟩] : List (View.Piece (Elt F) S1024x1024 .bf16)), y ∈ pc.1.set :=
  View.cover_of_tiled [⟨r1_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out1_3 x0 x1 x2`: three whole loads,
    a load of the output buffer whose value is dropped, one whole store. The grid coordinate is not read. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second projection's pipeline on core `c`: the arrays as the region finds them; after the
    body at point `t` each input buffer at its block and the output buffer at `out1_3` of the three input
    blocks; the invariant that of a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input buffer holds its window's block at every point, refilled there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is entered with at point `t`: the invariant, what the core owes, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the third projection, relu(x · W + b) on 8 row tiles, at the entry contents `V` -/

/-! ## The windows' blocks -/

/-- The block window `w` shows at grid point `t`: the window's view at `t` read off its array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of x: its buffer holds the block of the point at every point, for any proof data whose array is the
    entry contents and whose body leaves the block in place. The window is an input, never idle and never cut;
    where no transfer refilled the buffer the block index has not moved, so the earlier block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: one block for the whole grid, refilled at the first point only; the same statement. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: one block for the whole grid, refilled at the first point only; the same statement. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 × 1024 rectangle: every access of the x tile, of W and of the output buffer. -/
abbrev r2_blk : Rect S1024x1024 := Rect.unit (s := S1024x1024) ![0, 0] S1024x1024.size inb_S1024x1024_S1024x1024_0_0
/-- The whole 1 × 1024 rectangle: the read of the bias row. -/
abbrev r2_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out2_3 (x0 : Vec F S1024x1024 .f32) (x1 : Vec F S1024x1024 .bf16) (x2 : Vec F S1x1024 .f32) : Vec F S1024x1024 .bf16 :=
  View.canon [⟨r2_blk, k2_pay1 (View.ld x0 r2_blk) (View.ld x1 r2_blk) (View.ld x2 r2_row)⟩]

/-- The single store covers the buffer: its rectangle is the whole shape. -/
theorem cover2_3 (p0 : Vec F S1024x1024 .bf16) (y : S1024x1024.Idx) :
    ∃ pc ∈ ([⟨r2_blk, p0⟩] : List (View.Piece (Elt F) S1024x1024 .bf16)), y ∈ pc.1.set :=
  View.cover_of_tiled [⟨r2_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out2_3 x0 x1 x2`: three whole loads,
    a load of the output buffer whose value is dropped, one whole store. The grid coordinate is not read. -/
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the third projection's pipeline on core `c`: the arrays as the region finds them; after the
    body at point `t` each input buffer at its block and the output buffer at `out2_3` of the three input
    blocks; the invariant that of a body touching nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input buffer holds its window's block at every point, refilled there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is entered with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.AttnRunAW.lean ====
/- The attention kernel's body, case by case, on whole staging memrefs at explicit contents — case A: the first key
   tile of a query tile (the first conditional taken, the second not). Also what the three cases share: the two branch
   conditions as propositions over the grid coordinates, and two small facts about a load and a store through the
   whole-shape rectangle of a whole memref. -/
import proofs.«147016_j57062935495338_2_alg».proof.Proof.Gen.Kernel.Launch
import proofs.«147016_j57062935495338_2_alg».proof.Proof.Gen.Kernel.Skeleton
import proofs.«147016_j57062935495338_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional, from the grid coordinates. -/
abbrev cond3_0 (i : grid3.Coords) : Prop := (Scalar.cmpi .ne (Scalar.extui (Scalar.cmpi .eq (BitVec.ofNat 32 (i 2).val) 0#32)) 0#32) = 1#1
/-- The condition of the body's second conditional. -/
abbrev cond3_1 (i : grid3.Coords) : Prop := k3_cond2 i = 1#1

theorem zeros2 : (![0, 0] : Fin 2 → ℕ) = fun _ => 0 := by funext a; fin_cases a <;> rfl
theorem zeros3 : (![0, 0, 0] : Fin 3 → ℕ) = fun _ => 0 := by funext a; fin_cases a <;> rfl

/-- A load through the whole-shape rectangle of a whole memref whose contents read `X` reads `X`. -/
theorem readAt_unit_zero {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [show m.view.readAt (Elt F) (Rect.unit off S.size inb).toLoadRect (h.unread X)
        = View.ld (m.view.read (Elt F) (h.unread X)) (Rect.unit off S.size inb) from rfl,
    h.read_unread, View.ld_unit_zero hz]

/-- What any view reads after ONE store through the whole-shape rectangle, over any contents: the payload. -/
theorem read_writes_unit_zero {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
/-- The body at a point of case A (first conditional taken, second not), on whole memrefs: the inputs at their blocks, the
    output's buffer at any contents `xi`, the accumulator at anything; it zeroes the accumulator (`k3_pay1`), adds the point's
    term to it, and leaves the inputs and the output's buffer as they were. -/
theorem sound_kernel3_A (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i)
    (x0 : Vec F S1x1024x1024 .bf16) (x1 : Vec F S1x512x1024 .bf16) (x2 : Vec F S1x512x1024 .bf16) (x3 : Vec F S1x1024x512 .bf16) (xi : Vec F S1x1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (k3_pay2 x0 x1 x2 x3 (k3_pay1 (F := F)))) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [read_writes_unit_zero _ _ zeros2, readAt_unit_zero harg3 zeros3, readAt_unit_zero harg4 zeros3, readAt_unit_zero harg5 zeros3, readAt_unit_zero harg6 zeros3]
  unfold sound_kernel3_A.sl.v20 sound_kernel3_A.sl.HS_1
  rw [View.readCov_unit_zero _ zeros2]

/-- info: 'Cert.Kernel.Hand.sound_kernel3_A' depends on axioms: [propext, Classical.choice, Quot.sound] -/
#guard_msgs in #print axioms sound_kernel3_A

end Cert.Kernel.Hand

end
-- ==== Proof.AttnRunBW.lean ====
/- The attention kernel's body on whole staging memrefs at explicit contents — case B: a middle key tile (neither
   conditional taken). -/
import proofs.«147016_j57062935495338_2_alg».proof.Proof.AttnRunAW

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case B (neither conditional taken), on whole memrefs: the inputs at their blocks, the output's
    buffer at any contents `xi` and the accumulator at `s`; it leaves the inputs and the output's buffer as they were and
    the accumulator at `k3_pay2 x0 x1 x2 x3 s`. -/
theorem sound_kernel3_B (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : ¬cond3_1 i)
    (x0 : Vec F S1x1024x1024 .bf16) (x1 : Vec F S1x512x1024 .bf16) (x2 : Vec F S1x512x1024 .bf16) (x3 : Vec F S1x1024x512 .bf16) (s : Vec F S1024x1024 .f32) (xi : Vec F S1x1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (k3_pay2 x0 x1 x2 x3 s)) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [read_writes_unit_zero _ _ zeros2, readAt_unit_zero harg3 zeros3, readAt_unit_zero harg4 zeros3, readAt_unit_zero harg5 zeros3, readAt_unit_zero harg6 zeros3, readAt_unit_zero harg8 zeros2]

/-- info: 'Cert.Kernel.Hand.sound_kernel3_B' depends on axioms: [propext, Classical.choice, Quot.sound] -/
#guard_msgs in #print axioms sound_kernel3_B

end Cert.Kernel.Hand

end
-- ==== Proof.AttnRunCW.lean ====
/- The attention kernel's body on whole staging memrefs at explicit contents — case C: the last key tile of a query
   tile (the first conditional not taken, the second taken). -/
import proofs.«147016_j57062935495338_2_alg».proof.Proof.AttnRunBW

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case C (first conditional not taken, second taken), on whole memrefs: the inputs at their blocks,
    the output's buffer at anything, the accumulator at `s`; it leaves the accumulator at `s' := k3_pay2 x0 x1 x2 x3 s` and
    stores `k3_pay3 s'` whole into the output's buffer. -/
theorem sound_kernel3_C (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i)
    (x0 : Vec F S1x1024x1024 .bf16) (x1 : Vec F S1x512x1024 .bf16) (x2 : Vec F S1x512x1024 .bf16) (x3 : Vec F S1x1024x512 .bf16) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k3_pay3 (k3_pay2 x0 x1 x2 x3 s)) ∗ owns (c : Thread nD τ) arg8 fullShare (k3_pay2 x0 x1 x2 x3 s)) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3
  obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [read_writes_unit_zero _ _ zeros3]
    unfold sound_kernel3_C.sl.v29 sound_kernel3_C.sl.HS_1
    rw [View.readCov_unit_zero _ zeros2, readAt_unit_zero harg3 zeros3, readAt_unit_zero harg4 zeros3, readAt_unit_zero harg5 zeros3, readAt_unit_zero harg6 zeros3, readAt_unit_zero harg8 zeros2]
  iexists _; isplitr
  swap; · iexact HS
  ipureintro
  unfold sound_kernel3_C.sl.HS_1
  rw [read_writes_unit_zero _ _ zeros2, readAt_unit_zero harg3 zeros3, readAt_unit_zero harg4 zeros3, readAt_unit_zero harg5 zeros3, readAt_unit_zero harg6 zeros3, readAt_unit_zero harg8 zeros2]

/-- info: 'Cert.Kernel.Hand.sound_kernel3_C' depends on axioms: [propext, Classical.choice, Quot.sound] -/
#guard_msgs in #print axioms sound_kernel3_C

end Cert.Kernel.Hand

end
-- ==== Proof.AttnRegionW.lean ====
/- The class-R half of region 3, the attention kernel, whose accumulator is carried from grid point to grid point: stated
   at a parameter `V`, the TensorCore's buffer contents when the region is entered. What the accumulator holds after each
   point (`acc3`), what the output's staging buffer holds after the body (`out3_4`), the region invariant (`PhiS3`: the
   class's before the first point, afterwards the accumulator at `acc3` beside the rest of the class's), the proof data
   (`dat3`) with its projections, the body obligation by cases on the point's residue mod 4 over the three case triples,
   and the invariant's two ends (`hin3`, `hout3`). -/
import proofs.«147016_j57062935495338_2_alg».proof.Proof.AttnRunCW

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the output window's idle points, over the grid -/

/-- The first conditional is taken at the points ≡ 0 (mod 4): the first key tile of each query tile. -/
theorem hcond3_0 : ∀ t : Fin cfg3.N, cond3_0 (grid3.coords t) ↔ t.val % 4 = 0 :=
  (by decide +kernel : ∀ t : Fin grid3.N, cond3_0 (grid3.coords t) ↔ t.val % 4 = 0)
/-- The second is taken at the points ≡ 3 (mod 4): the last key tile. -/
theorem hcond3_1 : ∀ t : Fin cfg3.N, cond3_1 (grid3.coords t) ↔ t.val % 4 = 3 :=
  (by decide +kernel : ∀ t : Fin grid3.N, cond3_1 (grid3.coords t) ↔ t.val % 4 = 3)

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Where the second conditional fails the output window is idle: the body stores nothing into it there, -/
theorem idleAt3_4 : ∀ t : Fin cfg3.N, ¬cond3_1 (grid3.coords t) → cfg3.idle 4 (grid3.coords t) = true := by decide +kernel
/-- where it holds the window is live, -/
theorem liveAt3_4 : ∀ t : Fin cfg3.N, cond3_1 (grid3.coords t) → cfg3.idle 4 (grid3.coords t) = false := by decide +kernel
/-- and the block is written back at the points ≡ 3 (mod 4) only. -/
theorem noFlush3_4 (t : Fin cfg3.N) (h : ¬t.val % 4 = 3) : (cfg3.win 4).flush t = false :=
  Bool.eq_false_iff.mpr fun hf => h ((flush3_4 t).mp hf)

/-! ## The staging memrefs at a point, and the accumulator -/

abbrev ms3_0 (t : Fin cfg3.N) : Memref sig .tc .vmem S1x1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3 : Memref sig .tc .vmem S1024x1024 .f32 := Memref.whole cc3_scratch0

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. What the accumulator holds after the body at position `n`: the point's term added to zeros at the
    first key tile of a query tile (`n % 4 = 0`), to what the point before left otherwise. -/
def acc3 (c : Dev nD) : (n : ℕ) → n < cfg3.N → Vec F S1024x1024 .f32
  | 0, hn => k3_pay2 (iblk3 V c 0 ⟨0, hn⟩) (iblk3 V c 1 ⟨0, hn⟩) (iblk3 V c 2 ⟨0, hn⟩) (iblk3 V c 3 ⟨0, hn⟩) (k3_pay1 (F := F))
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (if (n + 1) % 4 = 0 then k3_pay1 (F := F) else acc3 c n (Nat.lt_of_succ_lt hn))

theorem acc3_zero (c : Dev nD) (n : ℕ) (hn : n < cfg3.N) (h : n % 4 = 0) :
    acc3 V c n hn = k3_pay2 (iblk3 V c 0 ⟨n, hn⟩) (iblk3 V c 1 ⟨n, hn⟩) (iblk3 V c 2 ⟨n, hn⟩) (iblk3 V c 3 ⟨n, hn⟩) (k3_pay1 (F := F)) := by
  cases n with
  | zero => rfl
  | succ n => rw [acc3, if_pos h]

theorem acc3_succ (c : Dev nD) (n : ℕ) (hn : n < cfg3.N) (h : ¬n % 4 = 0) :
    acc3 V c n hn = k3_pay2 (iblk3 V c 0 ⟨n, hn⟩) (iblk3 V c 1 ⟨n, hn⟩) (iblk3 V c 2 ⟨n, hn⟩) (iblk3 V c 3 ⟨n, hn⟩)
      (acc3 V c (n - 1) (Nat.lt_of_le_of_lt (Nat.sub_le _ _) hn)) := by
  cases n with
  | zero => exact absurd (Nat.zero_mod _) h
  | succ n => rw [acc3, if_neg h]; rfl

/-- What the output's staging buffer holds after the body at `t`: at the last key tile (`t % 4 = 3`) the accumulator
    clamped below at zero; elsewhere nothing consults it (the window is idle there and not written back), and the same
    expression serves as the placeholder. -/
def out3_4 (c : Dev nD) (t : Fin cfg3.N) : Vec F S1x1024x1024 .f32 := k3_pay3 (acc3 V c t.val t.isLt)

theorem out3_4_C (c : Dev nD) (t : Fin cfg3.N) (h : t.val % 4 = 3) : out3_4 V c t = k3_pay3 (acc3 V c t.val t.isLt) := rfl

/-! ## The region invariant -/

/-- The class's invariant with the accumulator split out of the scoped rest: owned at some contents, beside every other
    scoped buffer that is no staging buffer of this call, and the generator register. -/
theorem PhiA3_eq (c : Dev nD) :
    (Pipeline.ΦA spec3 c : sProp 𝕄)
      = iprop((iprop(∃ d, owns (c : Thread nD τ) scM3 fullShare d) ∗ Pipeline.scopedRestBut spec3 c [cc3_scratch0]) ∗ (∃ r, prngReg c r)) := by
  unfold Pipeline.ΦA
  rw [Pipeline.scopedRest_split_of_list spec3 c [cc3_scratch0] (by decide) (by decide)]
  simp only [bigSepL_singleton, scM3, owns_whole]; try rfl

/-- The invariant before position `n`: before the first point the class's; afterwards the accumulator at what the point
    before left in it, the other scoped buffers at anything, the generator register at some state. -/
def PhiS3 (c : Dev nD) : (n : ℕ) → n ≤ cfg3.N → sProp 𝕄
  | 0, _ => Pipeline.ΦA spec3 c
  | n + 1, hn => iprop((owns (c : Thread nD τ) scM3 fullShare (acc3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3 fullShare (acc3 V c (n - 1) (by omega)) ∗ Pipeline.scopedRestBut spec3 c [cc3_scratch0]) ∗ (∃ r, prngReg c r)) := by
  cases n with
  | zero => exact absurd rfl hz
  | succ n => rfl

/-! ## The proof data -/

/-- The proof data of region 3 on core `c`: the arrays as the region finds them (`V`); after the body at point `t` each
    input's buffer at its block and the output's at `out3_4`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 1000000 in
/-- The body at any point. The inputs' memrefs hold their blocks; the point's residue mod 4 says which case it is in; the
    invariant hands the body the accumulator at what the point before left (at anything before the first point) and
    takes it back at this point's contents; where the output window is idle its buffer goes back as it came, and at the
    last key tile it is left at the accumulator clamped at zero; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  simp only [after3_0, after3_1, after3_2, after3_3]
  by_cases h0 : t.val % 4 = 0
  · have h1 : ¬t.val % 4 = 3 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t h1)]
    rw [acc3_zero V c _ _ h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply (sound_kernel3_A c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_A c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    rw [acc3_succ V c _ _ h0]
    by_cases h1 : t.val % 4 = 3
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      unfold out3_4
      rw [acc3_succ V c _ _ h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_C c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t h1)]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_B c (grid3.coords t) _ _ _ _ _ _ _ _ _ _ _ _ hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

/-- info: 'Cert.Kernel.Hand.body_obligation3' depends on axioms: [propext, Classical.choice, Quot.sound] -/
#guard_msgs in #print axioms body_obligation3
/-- info: 'Cert.Kernel.Hand.hin3' depends on axioms: [propext, Classical.choice, Quot.sound] -/
#guard_msgs in #print axioms hin3
/-- info: 'Cert.Kernel.Hand.hout3' depends on axioms: [propext, Classical.choice, Quot.sound] -/
#guard_msgs in #print axioms hout3

end Cert.Kernel.Hand

end
-- ==== Proof.SegmentsW.lean ====
/-
  @main of the fused attention program is eight items in order: a stretch of host layout operations, the query
  projection, a reshape, the key projection, a reshape, the value projection, a reshape with the mask's change of
  format, and the attention region. This module walks the TensorCore's unscoped buffers through the eight items:
  the contents at each boundary (a host stretch applies its operations; a region replaces its windows' arrays by what
  its write-backs leave and touches nothing else), each region as a segment entered from one boundary and left at the
  next, and the run: every weakly fair execution terminates with every unscoped buffer at the last boundary's
  contents. Two readings of that last boundary follow: no item writes an argument array, so each ends as launched; and
  the result array holds what the attention region's write-backs leave.
-/
import proofs.«147016_j57062935495338_2_alg».proof.Proof.ProjRegionsW
import proofs.«147016_j57062935495338_2_alg».proof.Proof.AttnRegionW
import proofs.«147016_j57062935495338_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at the nine boundaries -/

/-- Core `c`'s buffers at launch. -/
abbrev W0 : Dev nD → Valuation τ sig (Elt F) := fun c b => m ((c : Dev nD), b)

/-- After host stretch 0 (entry of region 0). -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its windows' arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (entry of region 1). -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At region 1's exit: its windows' arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (entry of region 2). -/
abbrev W5 : Dev nD → Valuation τ sig (Elt F) := fun c => StableHlo.after hostOps2 (W4 m c)
/-- The same, read at the TensorCore's references. -/
abbrev V5 : (c : Dev nD) → (b : Ref sig .tc) → Buf (Elt F) ((c : Thread nD τ).loc b) := fun c b => W5 m c b
/-- At region 2's exit: its windows' arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (entry of region 3). -/
abbrev W7 : Dev nD → Valuation τ sig (Elt F) := fun c => StableHlo.after hostOps3 (W6 m c)
/-- The same, read at the TensorCore's references. -/
abbrev V7 : (c : Dev nD) → (b : Ref sig .tc) → Buf (Elt F) ((c : Thread nD τ).loc b) := fun c b => W7 m c b
/-- At region 3's exit: its windows' arrays at what the write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## What no item writes

A reference that no host stretch writes and that is no window's array of any region holds at the end what it held at
launch: each step of the walk leaves it alone. -/

theorem W8_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m c (Proc.devRef .tc r) = m ((c : Thread nD τ).loc r) :=
  (W8_of_ne m c r a3).trans <| (StableHlo.after_of_writes_sub hostOps3 _ hostOps3_writes h3).trans <|
  (W6_of_ne m c r a2).trans <| (StableHlo.after_of_writes_sub hostOps2 _ hostOps2_writes h2).trans <|
  (W4_of_ne m c r a1).trans <| (StableHlo.after_of_writes_sub hostOps1 _ hostOps1_writes h1).trans <|
  (W2_of_ne m c r a0).trans <| (StableHlo.after_of_writes_sub hostOps0 _ hostOps0_writes h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev Rd (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 between boundaries 1 and 2: its arrays split out of the unscoped buffers and put back at the exit
    contents; the generator register lent to the region's invariant and returned; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between boundaries 3 and 4: its arrays split out of the unscoped buffers and put back at the exit
    contents; the generator register lent to the region's invariant and returned; nothing owed; no semaphore of the
    kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between boundaries 5 and 6: its arrays split out of the unscoped buffers and put back at the exit
    contents; the generator register lent to the region's invariant and returned; nothing owed; no semaphore of the
    kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between boundaries 7 and 8. As the projections', except that its invariant is not constant:
    before the first point it is the class's (every scoped buffer no window stages at anything, the generator register),
    later it names the accumulator's contents; both ends give the class's invariant back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest spec3 c) ⊢ Pipeline.ΦA spec3 c := fun P => by
      unfold Pipeline.ΦA
      iintro ⟨Hp, -, Hr⟩
      isplitl [Hr]; · iexact Hr
      iexact Hp
    exact (h _).trans (hin3 (V7 m) c)
  hout c := by
    have h : (Pipeline.ΦA spec3 c : sProp 𝕄) ⊢ iprop((∃ r, prngReg c r) ∗ emp ∗ Pipeline.scopedRest spec3 c) := by
      unfold Pipeline.ΦA
      iintro ⟨Hr, Hp⟩
      isplitl [Hp]; · iexact Hp
      isplitr; · iempintro
      iexact Hr
    rw [Pipeline.ownSems0_none]
    exact (hout3 (V7 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    the final memory holds, at every unscoped buffer of every core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## Two readings of the last boundary -/

/-- Every argument array ends as launched. -/
theorem args_kept (s : (ℓ : Loc nD τ sig) → Buf (Elt F) ℓ) (c : Dev nD)
    (h : ∀ b ∈ Pipeline.ucRefs τ sig, s (((c : Thread nD τ)).1, b) = W8 m c b) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9) :=
  ⟨(h _ (mem_uc main_arg0 (by decide))).trans (W8_untouched m c main_arg0 (by decide) (by decide) (by decide) (by decide) (by decide) (by decide) (by decide) (by decide)),
   (h _ (mem_uc main_arg1 (by decide))).trans (W8_untouched m c main_arg1 (by decide) (by decide) (by decide) (by decide) (by decide) (by decide) (by decide) (by decide)),
   (h _ (mem_uc main_arg2 (by decide))).trans (W8_untouched m c main_arg2 (by decide) (by decide) (by decide) (by decide) (by decide) (by decide) (by decide) (by decide)),
   (h _ (mem_uc main_arg3 (by decide))).trans (W8_untouched m c main_arg3 (by decide) (by decide) (by decide) (by decide) (by decide) (by decide) (by decide) (by decide)),
   (h _ (mem_uc main_arg4 (by decide))).trans (W8_untouched m c main_arg4 (by decide) (by decide) (by decide) (by decide) (by decide) (by decide) (by decide) (by decide)),
   (h _ (mem_uc main_arg5 (by decide))).trans (W8_untouched m c main_arg5 (by decide) (by decide) (by decide) (by decide) (by decide) (by decide) (by decide) (by decide)),
   (h _ (mem_uc main_arg6 (by decide))).trans (W8_untouched m c main_arg6 (by decide) (by decide) (by decide) (by decide) (by decide) (by decide) (by decide) (by decide)),
   (h _ (mem_uc main_arg7 (by decide))).trans (W8_untouched m c main_arg7 (by decide) (by decide) (by decide) (by decide) (by decide) (by decide) (by decide) (by decide)),
   (h _ (mem_uc main_arg8 (by decide))).trans (W8_untouched m c main_arg8 (by decide) (by decide) (by decide) (by decide) (by decide) (by decide) (by decide) (by decide)),
   (h _ (mem_uc main_arg9 (by decide))).trans (W8_untouched m c main_arg9 (by decide) (by decide) (by decide) (by decide) (by decide) (by decide) (by decide) (by decide))⟩

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m r.2.mem c (h c)) (run_all m ρ)

/-- The result array ends at what the attention region's write-backs leave in its output window's array. -/
theorem result_at (s : (ℓ : Loc nD τ sig) → Buf (Elt F) ℓ) (c : Dev nD)
    (h : ∀ b ∈ Pipeline.ucRefs τ sig, s (((c : Thread nD τ)).1, b) = W8 m c b) :
    s ((c.tc : Thread nD τ).loc main_v19) = (dat3 (V7 m) c).arrAt 4 cfg3.N :=
  (h _ (mem_uc main_v19 (by decide))).trans (W8_arr m c 4)

end Cert.Kernel.Hand

end
-- ==== Proof.ProjRegions.lean ====
/- The three projection regions of the program, each at the buffer contents it is entered with: for every
   projection kernel, the block each window shows at a grid point, the buffer its single whole store leaves in the
   output window as a function of the three input blocks, the Hoare triple of the body over whole staging
   buffers, the per-core proof data of its pipeline, and the body obligation at every grid point.

   Each kernel computes relu(x · W + b) on a tile of 1024 rows: it reads the tile of x, the whole of W and the
   bias row, reads the output buffer once without using the value, and overwrites the whole output buffer. So
   the output buffer after the body is a closed function of the three input blocks at the point, and each input
   buffer holds its window's block at every point, whether or not a transfer refilled it there (W and the bias
   row have a constant block index, so an unrefilled buffer still holds the right block). -/
import proofs.«147016_j57062935495338_2_alg».proof.Proof.Gen.KernelIdeal.Launch
import proofs.«147016_j57062935495338_2_alg».proof.Proof.Gen.KernelIdeal.Skeleton
import proofs.«147016_j57062935495338_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 1024 × 1024 extents is decided by structural recursion, one step per
-- coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: every statement below is at this parameter
variable (V : (c : Dev nD) → (b : Ref sig .tc) → Buf (Elt F) ((c : Thread nD τ).loc b))

/-! # Region 0: the first projection, relu(x · W + b) on 8 row tiles, at the entry contents `V` -/

/-! ## The windows' blocks -/

/-- The block window `w` shows at grid point `t`: the window's view at `t` read off its array as the region
    finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of x: its buffer holds the block of the point at every point, for any proof data whose array is the
    entry contents and whose body leaves the block in place. The window is an input, never idle and never cut;
    where no transfer refilled the buffer the block index has not moved, so the earlier block is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: one block for the whole grid, refilled at the first point only; the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: one block for the whole grid, refilled at the first point only; the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 1024 rectangle: every access of the x tile, of W and of the output buffer. -/
abbrev r0_blk : Rect S1024x1024 := Rect.unit (s := S1024x1024) ![0, 0] S1024x1024.size inb_S1024x1024_S1024x1024_0_0
/-- The whole 1 × 1024 rectangle: the read of the bias row. -/
abbrev r0_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out0_3 (x0 : Vec F S1024x1024 .f32) (x1 : Vec F S1024x1024 .bf16) (x2 : Vec F S1x1024 .f32) : Vec F S1024x1024 .bf16 :=
  View.canon [⟨r0_blk, k0_pay1 (View.ld x0 r0_blk) (View.ld x1 r0_blk) (View.ld x2 r0_row)⟩]

/-- The single store covers the buffer: its rectangle is the whole shape. -/
theorem cover0_3 (p0 : Vec F S1024x1024 .bf16) (y : S1024x1024.Idx) :
    ∃ pc ∈ ([⟨r0_blk, p0⟩] : List (View.Piece (Elt F) S1024x1024 .bf16)), y ∈ pc.1.set :=
  View.cover_of_tiled [⟨r0_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out0_3 x0 x1 x2`: three whole loads,
    a load of the output buffer whose value is dropped, one whole store. The grid coordinate is not read. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first projection's pipeline on core `c`: the arrays as the region finds them; after the
    body at point `t` each input buffer at its block and the output buffer at `out0_3` of the three input
    blocks; the invariant that of a body touching nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input buffer holds its window's block at every point, refilled there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is entered with at point `t`: the invariant, what the core owes, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second projection, relu(x · W + b) on 8 row tiles, at the entry contents `V` -/

/-! ## The windows' blocks -/

/-- The block window `w` shows at grid point `t`: the window's view at `t` read off its array as the region
    finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of x: its buffer holds the block of the point at every point, for any proof data whose array is the
    entry contents and whose body leaves the block in place. The window is an input, never idle and never cut;
    where no transfer refilled the buffer the block index has not moved, so the earlier block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix: one block for the whole grid, refilled at the first point only; the same statement. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: one block for the whole grid, refilled at the first point only; the same statement. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 1024 × 1024 rectangle: every access of the x tile, of W and of the output buffer. -/
abbrev r1_blk : Rect S1024x1024 := Rect.unit (s := S1024x1024) ![0, 0] S1024x1024.size inb_S1024x1024_S1024x1024_0_0
/-- The whole 1 × 1024 rectangle: the read of the bias row. -/
abbrev r1_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out1_3 (x0 : Vec F S1024x1024 .f32) (x1 : Vec F S1024x1024 .bf16) (x2 : Vec F S1x1024 .f32) : Vec F S1024x1024 .bf16 :=
  View.canon [⟨r1_blk, k1_pay1 (View.ld x0 r1_blk) (View.ld x1 r1_blk) (View.ld x2 r1_row)⟩]

/-- The single store covers the buffer: its rectangle is the whole shape. -/
theorem cover1_3 (p0 : Vec F S1024x1024 .bf16) (y : S1024x1024.Idx) :
    ∃ pc ∈ ([⟨r1_blk, p0⟩] : List (View.Piece (Elt F) S1024x1024 .bf16)), y ∈ pc.1.set :=
  View.cover_of_tiled [⟨r1_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out1_3 x0 x1 x2`: three whole loads,
    a load of the output buffer whose value is dropped, one whole store. The grid coordinate is not read. -/
theorem sound_kernel1 (c : Dev nD) (E : Set ℕ) (i : grid1.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second projection's pipeline on core `c`: the arrays as the region finds them; after the
    body at point `t` each input buffer at its block and the output buffer at `out1_3` of the three input
    blocks; the invariant that of a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input buffer holds its window's block at every point, refilled there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is entered with at point `t`: the invariant, what the core owes, and each window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the third projection, relu(x · W + b) on 8 row tiles, at the entry contents `V` -/

/-! ## The windows' blocks -/

/-- The block window `w` shows at grid point `t`: the window's view at `t` read off its array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile of x: its buffer holds the block of the point at every point, for any proof data whose array is the
    entry contents and whose body leaves the block in place. The window is an input, never idle and never cut;
    where no transfer refilled the buffer the block index has not moved, so the earlier block is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: one block for the whole grid, refilled at the first point only; the same statement. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row: one block for the whole grid, refilled at the first point only; the same statement. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 × 1024 rectangle: every access of the x tile, of W and of the output buffer. -/
abbrev r2_blk : Rect S1024x1024 := Rect.unit (s := S1024x1024) ![0, 0] S1024x1024.size inb_S1024x1024_S1024x1024_0_0
/-- The whole 1 × 1024 rectangle: the read of the bias row. -/
abbrev r2_row : Rect S1x1024 := Rect.unit (s := S1x1024) ![0, 0] S1x1024.size inb_S1x1024_S1x1024_0_0

/-! ## What the body leaves in the output window's buffer -/

/-- The output buffer after the body, from the three input blocks: one store of relu(x · W + b), rounded to
    bf16, over the whole buffer. -/
def out2_3 (x0 : Vec F S1024x1024 .f32) (x1 : Vec F S1024x1024 .bf16) (x2 : Vec F S1x1024 .f32) : Vec F S1024x1024 .bf16 :=
  View.canon [⟨r2_blk, k2_pay1 (View.ld x0 r2_blk) (View.ld x1 r2_blk) (View.ld x2 r2_row)⟩]

/-- The single store covers the buffer: its rectangle is the whole shape. -/
theorem cover2_3 (p0 : Vec F S1024x1024 .bf16) (y : S1024x1024.Idx) :
    ∃ pc ∈ ([⟨r2_blk, p0⟩] : List (View.Piece (Elt F) S1024x1024 .bf16)), y ∈ pc.1.set :=
  View.cover_of_tiled [⟨r2_blk, p0⟩] S1024x1024.size (by rfl) y

/-! ## The body's triple -/

set_option maxHeartbeats 1000000 in
/-- The body on whole staging buffers — the inputs' reading `x0`, `x1`, `x2`, the output's holding anything —
    runs to a state where the inputs' are unchanged and the output's reads `out2_3 x0 x1 x2`: three whole loads,
    a load of the output buffer whose value is dropped, one whole store. The grid coordinate is not read. -/
theorem sound_kernel2 (c : Dev nD) (E : Set ℕ) (i : grid2.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the third projection's pipeline on core `c`: the arrays as the region finds them; after the
    body at point `t` each input buffer at its block and the output buffer at `out2_3` of the three input
    blocks; the invariant that of a body touching nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input buffer holds its window's block at every point, refilled there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is entered with at point `t`: the invariant, what the core owes, and each window's current
    staging buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.AttnRunA.lean ====
/- The attention kernel's body, case by case, on whole staging memrefs at explicit contents — case A: the first key
   tile of a query tile (the first conditional taken, the second not). Also what the three cases share: the two branch
   conditions as propositions over the grid coordinates, and two small facts about a load and a store through the
   whole-shape rectangle of a whole memref. -/
import proofs.«147016_j57062935495338_2_alg».proof.Proof.Gen.KernelIdeal.Launch
import proofs.«147016_j57062935495338_2_alg».proof.Proof.Gen.KernelIdeal.Skeleton
import proofs.«147016_j57062935495338_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional, from the grid coordinates. -/
abbrev cond3_0 (i : grid3.Coords) : Prop := (Scalar.cmpi .ne (Scalar.extui (Scalar.cmpi .eq (BitVec.ofNat 32 (i 2).val) 0#32)) 0#32) = 1#1
/-- The condition of the body's second conditional. -/
abbrev cond3_1 (i : grid3.Coords) : Prop := k3_cond2 i = 1#1

theorem zeros2 : (![0, 0] : Fin 2 → ℕ) = fun _ => 0 := by funext a; fin_cases a <;> rfl
theorem zeros3 : (![0, 0, 0] : Fin 3 → ℕ) = fun _ => 0 := by funext a; fin_cases a <;> rfl

/-- A load through the whole-shape rectangle of a whole memref whose contents read `X` reads `X`. -/
theorem readAt_unit_zero {κ : Kind} {sp : Space} {S : Shape} {e : EltTy} {m : Memref sig κ sp S e} (h : m.IsWhole)
    {off : Fin S.rank → ℕ} (hz : off = fun _ => 0) (inb : ∀ a, off a + S.size a ≤ S.size a) (X : S.Idx → Elt F e) :
    m.view.readAt (Elt F) (Rect.unit off S.size inb).toLoadRect (h.unread X) = X := by
  rw [show m.view.readAt (Elt F) (Rect.unit off S.size inb).toLoadRect (h.unread X)
        = View.ld (m.view.read (Elt F) (h.unread X)) (Rect.unit off S.size inb) from rfl,
    h.read_unread, View.ld_unit_zero hz]

/-- What any view reads after ONE store through the whole-shape rectangle, over any contents: the payload. -/
theorem read_writes_unit_zero {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
/-- The body at a point of case A (first conditional taken, second not), on whole memrefs: the inputs at their blocks, the
    output's buffer at any contents `xi`, the accumulator at anything; it zeroes the accumulator (`k3_pay1`), adds the point's
    term to it, and leaves the inputs and the output's buffer as they were. -/
theorem sound_kernel3_A (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i)
    (x0 : Vec F S1x1024x1024 .bf16) (x1 : Vec F S1x512x1024 .bf16) (x2 : Vec F S1x512x1024 .bf16) (x3 : Vec F S1x1024x512 .bf16) (xi : Vec F S1x1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (k3_pay2 x0 x1 x2 x3 (k3_pay1 (F := F)))) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [read_writes_unit_zero _ _ zeros2, readAt_unit_zero harg3 zeros3, readAt_unit_zero harg4 zeros3, readAt_unit_zero harg5 zeros3, readAt_unit_zero harg6 zeros3]
  unfold sound_kernel3_A.sl.v20 sound_kernel3_A.sl.HS_1
  rw [View.readCov_unit_zero _ zeros2]

/-- info: 'Cert.KernelIdeal.Hand.sound_kernel3_A' depends on axioms: [propext, Classical.choice, Quot.sound] -/
#guard_msgs in #print axioms sound_kernel3_A

end Cert.KernelIdeal.Hand

end
-- ==== Proof.AttnRunB.lean ====
/- The attention kernel's body on whole staging memrefs at explicit contents — case B: a middle key tile (neither
   conditional taken). -/
import proofs.«147016_j57062935495338_2_alg».proof.Proof.AttnRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case B (neither conditional taken), on whole memrefs: the inputs at their blocks, the output's
    buffer at any contents `xi` and the accumulator at `s`; it leaves the inputs and the output's buffer as they were and
    the accumulator at `k3_pay2 x0 x1 x2 x3 s`. -/
theorem sound_kernel3_B (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : ¬cond3_1 i)
    (x0 : Vec F S1x1024x1024 .bf16) (x1 : Vec F S1x512x1024 .bf16) (x2 : Vec F S1x512x1024 .bf16) (x3 : Vec F S1x1024x512 .bf16) (s : Vec F S1024x1024 .f32) (xi : Vec F S1x1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare (k3_pay2 x0 x1 x2 x3 s)) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [read_writes_unit_zero _ _ zeros2, readAt_unit_zero harg3 zeros3, readAt_unit_zero harg4 zeros3, readAt_unit_zero harg5 zeros3, readAt_unit_zero harg6 zeros3, readAt_unit_zero harg8 zeros2]

/-- info: 'Cert.KernelIdeal.Hand.sound_kernel3_B' depends on axioms: [propext, Classical.choice, Quot.sound] -/
#guard_msgs in #print axioms sound_kernel3_B

end Cert.KernelIdeal.Hand

end
-- ==== Proof.AttnRunC.lean ====
/- The attention kernel's body on whole staging memrefs at explicit contents — case C: the last key tile of a query
   tile (the first conditional not taken, the second taken). -/
import proofs.«147016_j57062935495338_2_alg».proof.Proof.AttnRunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of case C (first conditional not taken, second taken), on whole memrefs: the inputs at their blocks,
    the output's buffer at anything, the accumulator at `s`; it leaves the accumulator at `s' := k3_pay2 x0 x1 x2 x3 s` and
    stores `k3_pay3 s'` whole into the output's buffer. -/
theorem sound_kernel3_C (c : Dev nD) (i : grid3.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i)
    (x0 : Vec F S1x1024x1024 .bf16) (x1 : Vec F S1x512x1024 .bf16) (x2 : Vec F S1x512x1024 .bf16) (x3 : Vec F S1x1024x512 .bf16) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k3_pay3 (k3_pay2 x0 x1 x2 x3 s)) ∗ owns (c : Thread nD τ) arg8 fullShare (k3_pay2 x0 x1 x2 x3 s)) -∗ K ⟨⟩))
      ⊢ wp frame (wpE (defs₀ (F := F)) Variants.none c none) E (cc3__attn_kernel i arg3 harg3 arg4 harg4 arg5 harg5 arg6 harg6 arg7 harg7 arg8 harg8) K := by
  rw [cc3__attn_kernel_eq_skeleton]; unfold cc3__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3
  obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [read_writes_unit_zero _ _ zeros3]
    unfold sound_kernel3_C.sl.v29 sound_kernel3_C.sl.HS_1
    rw [View.readCov_unit_zero _ zeros2, readAt_unit_zero harg3 zeros3, readAt_unit_zero harg4 zeros3, readAt_unit_zero harg5 zeros3, readAt_unit_zero harg6 zeros3, readAt_unit_zero harg8 zeros2]
  iexists _; isplitr
  swap; · iexact HS
  ipureintro
  unfold sound_kernel3_C.sl.HS_1
  rw [read_writes_unit_zero _ _ zeros2, readAt_unit_zero harg3 zeros3, readAt_unit_zero harg4 zeros3, readAt_unit_zero harg5 zeros3, readAt_unit_zero harg6 zeros3, readAt_unit_zero harg8 zeros2]

/-- info: 'Cert.KernelIdeal.Hand.sound_kernel3_C' depends on axioms: [propext, Classical.choice, Quot.sound] -/
#guard_msgs in #print axioms sound_kernel3_C

end Cert.KernelIdeal.Hand

end
-- ==== Proof.AttnRegion.lean ====
/- The class-R half of region 3, the attention kernel, whose accumulator is carried from grid point to grid point: stated
   at a parameter `V`, the TensorCore's buffer contents when the region is entered. What the accumulator holds after each
   point (`acc3`), what the output's staging buffer holds after the body (`out3_4`), the region invariant (`PhiS3`: the
   class's before the first point, afterwards the accumulator at `acc3` beside the rest of the class's), the proof data
   (`dat3`) with its projections, the body obligation by cases on the point's residue mod 4 over the three case triples,
   and the invariant's two ends (`hin3`, `hout3`). -/
import proofs.«147016_j57062935495338_2_alg».proof.Proof.AttnRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the output window's idle points, over the grid -/

/-- The first conditional is taken at the points ≡ 0 (mod 4): the first key tile of each query tile. -/
theorem hcond3_0 : ∀ t : Fin cfg3.N, cond3_0 (grid3.coords t) ↔ t.val % 4 = 0 :=
  (by decide +kernel : ∀ t : Fin grid3.N, cond3_0 (grid3.coords t) ↔ t.val % 4 = 0)
/-- The second is taken at the points ≡ 3 (mod 4): the last key tile. -/
theorem hcond3_1 : ∀ t : Fin cfg3.N, cond3_1 (grid3.coords t) ↔ t.val % 4 = 3 :=
  (by decide +kernel : ∀ t : Fin grid3.N, cond3_1 (grid3.coords t) ↔ t.val % 4 = 3)

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Where the second conditional fails the output window is idle: the body stores nothing into it there, -/
theorem idleAt3_4 : ∀ t : Fin cfg3.N, ¬cond3_1 (grid3.coords t) → cfg3.idle 4 (grid3.coords t) = true := by decide +kernel
/-- where it holds the window is live, -/
theorem liveAt3_4 : ∀ t : Fin cfg3.N, cond3_1 (grid3.coords t) → cfg3.idle 4 (grid3.coords t) = false := by decide +kernel
/-- and the block is written back at the points ≡ 3 (mod 4) only. -/
theorem noFlush3_4 (t : Fin cfg3.N) (h : ¬t.val % 4 = 3) : (cfg3.win 4).flush t = false :=
  Bool.eq_false_iff.mpr fun hf => h ((flush3_4 t).mp hf)

/-! ## The staging memrefs at a point, and the accumulator -/

abbrev ms3_0 (t : Fin cfg3.N) : Memref sig .tc .vmem S1x1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x1024 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3 : Memref sig .tc .vmem S1024x1024 .f32 := Memref.whole cc3_scratch0

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. What the accumulator holds after the body at position `n`: the point's term added to zeros at the
    first key tile of a query tile (`n % 4 = 0`), to what the point before left otherwise. -/
def acc3 (c : Dev nD) : (n : ℕ) → n < cfg3.N → Vec F S1024x1024 .f32
  | 0, hn => k3_pay2 (iblk3 V c 0 ⟨0, hn⟩) (iblk3 V c 1 ⟨0, hn⟩) (iblk3 V c 2 ⟨0, hn⟩) (iblk3 V c 3 ⟨0, hn⟩) (k3_pay1 (F := F))
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (if (n + 1) % 4 = 0 then k3_pay1 (F := F) else acc3 c n (Nat.lt_of_succ_lt hn))

theorem acc3_zero (c : Dev nD) (n : ℕ) (hn : n < cfg3.N) (h : n % 4 = 0) :
    acc3 V c n hn = k3_pay2 (iblk3 V c 0 ⟨n, hn⟩) (iblk3 V c 1 ⟨n, hn⟩) (iblk3 V c 2 ⟨n, hn⟩) (iblk3 V c 3 ⟨n, hn⟩) (k3_pay1 (F := F)) := by
  cases n with
  | zero => rfl
  | succ n => rw [acc3, if_pos h]

theorem acc3_succ (c : Dev nD) (n : ℕ) (hn : n < cfg3.N) (h : ¬n % 4 = 0) :
    acc3 V c n hn = k3_pay2 (iblk3 V c 0 ⟨n, hn⟩) (iblk3 V c 1 ⟨n, hn⟩) (iblk3 V c 2 ⟨n, hn⟩) (iblk3 V c 3 ⟨n, hn⟩)
      (acc3 V c (n - 1) (Nat.lt_of_le_of_lt (Nat.sub_le _ _) hn)) := by
  cases n with
  | zero => exact absurd (Nat.zero_mod _) h
  | succ n => rw [acc3, if_neg h]; rfl

/-- What the output's staging buffer holds after the body at `t`: at the last key tile (`t % 4 = 3`) the accumulator
    clamped below at zero; elsewhere nothing consults it (the window is idle there and not written back), and the same
    expression serves as the placeholder. -/
def out3_4 (c : Dev nD) (t : Fin cfg3.N) : Vec F S1x1024x1024 .f32 := k3_pay3 (acc3 V c t.val t.isLt)

theorem out3_4_C (c : Dev nD) (t : Fin cfg3.N) (h : t.val % 4 = 3) : out3_4 V c t = k3_pay3 (acc3 V c t.val t.isLt) := rfl

/-! ## The region invariant -/

/-- The class's invariant with the accumulator split out of the scoped rest: owned at some contents, beside every other
    scoped buffer that is no staging buffer of this call, and the generator register. -/
theorem PhiA3_eq (c : Dev nD) :
    (Pipeline.ΦA spec3 c : sProp 𝕄)
      = iprop((iprop(∃ d, owns (c : Thread nD τ) scM3 fullShare d) ∗ Pipeline.scopedRestBut spec3 c [cc3_scratch0]) ∗ (∃ r, prngReg c r)) := by
  unfold Pipeline.ΦA
  rw [Pipeline.scopedRest_split_of_list spec3 c [cc3_scratch0] (by decide) (by decide)]
  simp only [bigSepL_singleton, scM3, owns_whole]; try rfl

/-- The invariant before position `n`: before the first point the class's; afterwards the accumulator at what the point
    before left in it, the other scoped buffers at anything, the generator register at some state. -/
def PhiS3 (c : Dev nD) : (n : ℕ) → n ≤ cfg3.N → sProp 𝕄
  | 0, _ => Pipeline.ΦA spec3 c
  | n + 1, hn => iprop((owns (c : Thread nD τ) scM3 fullShare (acc3 V c n hn) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ Pipeline.scopedRestBut spec3 c [cc3_scratch0]) ∗ (∃ r, prngReg c r)) := rfl

theorem PhiS3_pos (c : Dev nD) (n : ℕ) (h : n ≤ cfg3.N) (hz : n ≠ 0) :
    PhiS3 V c n h = iprop((owns (c : Thread nD τ) scM3 fullShare (acc3 V c (n - 1) (by omega)) ∗ Pipeline.scopedRestBut spec3 c [cc3_scratch0]) ∗ (∃ r, prngReg c r)) := by
  cases n with
  | zero => exact absurd rfl hz
  | succ n => rfl

/-! ## The proof data -/

/-- The proof data of region 3 on core `c`: the arrays as the region finds them (`V`); after the body at point `t` each
    input's buffer at its block and the output's at `out3_4`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

/-- Input window 0's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
/-- Input window 1's current staging buffer holds its block at every point, fetched there or not. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
/-- Input window 2's current staging buffer holds its block at every point, fetched there or not. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
/-- Input window 3's current staging buffer holds its block at every point, fetched there or not. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 1000000 in
/-- The body at any point. The inputs' memrefs hold their blocks; the point's residue mod 4 says which case it is in; the
    invariant hands the body the accumulator at what the point before left (at anything before the first point) and
    takes it back at this point's contents; where the output window is idle its buffer goes back as it came, and at the
    last key tile it is left at the accumulator clamped at zero; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  simp only [after3_0, after3_1, after3_2, after3_3]
  by_cases h0 : t.val % 4 = 0
  · have h1 : ¬t.val % 4 = 3 := by omega
    have hc0 : cond3_0 (grid3.coords t) := (hcond3_0 t).mpr h0
    have hc1 : ¬cond3_1 (grid3.coords t) := fun h => h1 ((hcond3_1 t).mp h)
    rw [Dat.leavesExact_idle (dat3 V c) 4 t (idleAt3_4 t hc1) (noFlush3_4 t h1)]
    rw [acc3_zero V c _ _ h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩⟩
      iapply (sound_kernel3_A c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_A c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond3_0 (grid3.coords t) := fun h => h0 ((hcond3_0 t).mp h)
    rw [acc3_succ V c _ _ h0]
    by_cases h1 : t.val % 4 = 3
    · have hc1 : cond3_1 (grid3.coords t) := (hcond3_1 t).mpr h1
      rw [show (dat3 V c).leavesExact 4 t = owns (c : Thread nD τ) (ms3_4 t) fullShare ((dat3 V c).after 4 t) from by
        unfold Dat.leavesExact; rw [liveAt3_4 t hc1], after3_4]
      unfold out3_4
      rw [acc3_succ V c _ _ h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_C c (grid3.coords t) _ _ _ _ _ _ _ _ _ _ _ _ hc0 hc1 (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t h1)]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel3_B c (grid3.coords t) _ _ _ _ _ _ _ _ _ _ _ _ hc0 hc1 (iblk3 V c 0 t) (iblk3 V c 1 t) (iblk3 V c 2 t) (iblk3 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]
    · iexists _; iexact HS
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

/-- info: 'Cert.KernelIdeal.Hand.body_obligation3' depends on axioms: [propext, Classical.choice, Quot.sound] -/
#guard_msgs in #print axioms body_obligation3
/-- info: 'Cert.KernelIdeal.Hand.hin3' depends on axioms: [propext, Classical.choice, Quot.sound] -/
#guard_msgs in #print axioms hin3
/-- info: 'Cert.KernelIdeal.Hand.hout3' depends on axioms: [propext, Classical.choice, Quot.sound] -/
#guard_msgs in #print axioms hout3

end Cert.KernelIdeal.Hand

end
-- ==== Proof.Segments.lean ====
/-
  @main of the fused attention program is eight items in order: a stretch of host layout operations, the query
  projection, a reshape, the key projection, a reshape, the value projection, a reshape with the mask's change of
  format, and the attention region. This module walks the TensorCore's unscoped buffers through the eight items:
  the contents at each boundary (a host stretch applies its operations; a region replaces its windows' arrays by what
  its write-backs leave and touches nothing else), each region as a segment entered from one boundary and left at the
  next, and the run: every weakly fair execution terminates with every unscoped buffer at the last boundary's
  contents. Two readings of that last boundary follow: no item writes an argument array, so each ends as launched; and
  the result array holds what the attention region's write-backs leave.
-/
import proofs.«147016_j57062935495338_2_alg».proof.Proof.ProjRegions
import proofs.«147016_j57062935495338_2_alg».proof.Proof.AttnRegion
import proofs.«147016_j57062935495338_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at the nine boundaries -/

/-- Core `c`'s buffers at launch. -/
abbrev W0 : Dev nD → Valuation τ sig (Elt F) := fun c b => m ((c : Dev nD), b)

/-- After host stretch 0 (entry of region 0). -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its windows' arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (entry of region 1). -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At region 1's exit: its windows' arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After host stretch 2 (entry of region 2). -/
abbrev W5 : Dev nD → Valuation τ sig (Elt F) := fun c => StableHlo.after hostOps2 (W4 m c)
/-- The same, read at the TensorCore's references. -/
abbrev V5 : (c : Dev nD) → (b : Ref sig .tc) → Buf (Elt F) ((c : Thread nD τ).loc b) := fun c b => W5 m c b
/-- At region 2's exit: its windows' arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After host stretch 3 (entry of region 3). -/
abbrev W7 : Dev nD → Valuation τ sig (Elt F) := fun c => StableHlo.after hostOps3 (W6 m c)
/-- The same, read at the TensorCore's references. -/
abbrev V7 : (c : Dev nD) → (b : Ref sig .tc) → Buf (Elt F) ((c : Thread nD τ).loc b) := fun c b => W7 m c b
/-- At region 3's exit: its windows' arrays at what the write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ## What no item writes

A reference that no host stretch writes and that is no window's array of any region holds at the end what it held at
launch: each step of the walk leaves it alone. -/

theorem W8_untouched (c : Dev nD) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m c (Proc.devRef .tc r) = m ((c : Thread nD τ).loc r) :=
  (W8_of_ne m c r a3).trans <| (StableHlo.after_of_writes_sub hostOps3 _ hostOps3_writes h3).trans <|
  (W6_of_ne m c r a2).trans <| (StableHlo.after_of_writes_sub hostOps2 _ hostOps2_writes h2).trans <|
  (W4_of_ne m c r a1).trans <| (StableHlo.after_of_writes_sub hostOps1 _ hostOps1_writes h1).trans <|
  (W2_of_ne m c r a0).trans <| (StableHlo.after_of_writes_sub hostOps0 _ hostOps0_writes h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev Rd (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 between boundaries 1 and 2: its arrays split out of the unscoped buffers and put back at the exit
    contents; the generator register lent to the region's invariant and returned; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between boundaries 3 and 4: its arrays split out of the unscoped buffers and put back at the exit
    contents; the generator register lent to the region's invariant and returned; nothing owed; no semaphore of the
    kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between boundaries 5 and 6: its arrays split out of the unscoped buffers and put back at the exit
    contents; the generator register lent to the region's invariant and returned; nothing owed; no semaphore of the
    kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between boundaries 7 and 8. As the projections', except that its invariant is not constant:
    before the first point it is the class's (every scoped buffer no window stages at anything, the generator register),
    later it names the accumulator's contents; both ends give the class's invariant back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest spec3 c) ⊢ Pipeline.ΦA spec3 c := fun P => by
      unfold Pipeline.ΦA
      iintro ⟨Hp, -, Hr⟩
      isplitl [Hr]; · iexact Hr
      iexact Hp
    exact (h _).trans (hin3 (V7 m) c)
  hout c := by
    have h : (Pipeline.ΦA spec3 c : sProp 𝕄) ⊢ iprop((∃ r, prngReg c r) ∗ emp ∗ Pipeline.scopedRest spec3 c) := by
      unfold Pipeline.ΦA
      iintro ⟨Hr, Hp⟩
      isplitl [Hp]; · iexact Hp
      isplitr; · iempintro
      iexact Hr
    rw [Pipeline.ownSems0_none]
    exact (hout3 (V7 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    the final memory holds, at every unscoped buffer of every core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## Two readings of the last boundary -/

/-- Every argument array ends as launched. -/
theorem args_kept (s : (ℓ : Loc nD τ sig) → Buf (Elt F) ℓ) (c : Dev nD)
    (h : ∀ b ∈ Pipeline.ucRefs τ sig, s (((c : Thread nD τ)).1, b) = W8 m c b) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9) :=
  ⟨(h _ (mem_uc main_arg0 (by decide))).trans (W8_untouched m c main_arg0 (by decide) (by decide) (by decide) (by decide) (by decide) (by decide) (by decide) (by decide)),
   (h _ (mem_uc main_arg1 (by decide))).trans (W8_untouched m c main_arg1 (by decide) (by decide) (by decide) (by decide) (by decide) (by decide) (by decide) (by decide)),
   (h _ (mem_uc main_arg2 (by decide))).trans (W8_untouched m c main_arg2 (by decide) (by decide) (by decide) (by decide) (by decide) (by decide) (by decide) (by decide)),
   (h _ (mem_uc main_arg3 (by decide))).trans (W8_untouched m c main_arg3 (by decide) (by decide) (by decide) (by decide) (by decide) (by decide) (by decide) (by decide)),
   (h _ (mem_uc main_arg4 (by decide))).trans (W8_untouched m c main_arg4 (by decide) (by decide) (by decide) (by decide) (by decide) (by decide) (by decide) (by decide)),
   (h _ (mem_uc main_arg5 (by decide))).trans (W8_untouched m c main_arg5 (by decide) (by decide) (by decide) (by decide) (by decide) (by decide) (by decide) (by decide)),
   (h _ (mem_uc main_arg6 (by decide))).trans (W8_untouched m c main_arg6 (by decide) (by decide) (by decide) (by decide) (by decide) (by decide) (by decide) (by decide)),
   (h _ (mem_uc main_arg7 (by decide))).trans (W8_untouched m c main_arg7 (by decide) (by decide) (by decide) (by decide) (by decide) (by decide) (by decide) (by decide)),
   (h _ (mem_uc main_arg8 (by decide))).trans (W8_untouched m c main_arg8 (by decide) (by decide) (by decide) (by decide) (by decide) (by decide) (by decide) (by decide)),
   (h _ (mem_uc main_arg9 (by decide))).trans (W8_untouched m c main_arg9 (by decide) (by decide) (by decide) (by decide) (by decide) (by decide) (by decide) (by decide))⟩

/-- THE FRAME: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m r.2.mem c (h c)) (run_all m ρ)

/-- The result array ends at what the attention region's write-backs leave in its output window's array. -/
theorem result_at (s : (ℓ : Loc nD τ sig) → Buf (Elt F) ℓ) (c : Dev nD)
    (h : ∀ b ∈ Pipeline.ucRefs τ sig, s (((c : Thread nD τ)).1, b) = W8 m c b) :
    s ((c.tc : Thread nD τ).loc main_v19) = (dat3 (V7 m) c).arrAt 4 cfg3.N :=
  (h _ (mem_uc main_v19 (by decide))).trans (W8_arr m c 4)

end Cert.KernelIdeal.Hand

end
-- ==== Proof.Spec.lean ====
/-
  The specification of the relu-attention certificate, and the laws between its two arrangements.

  Arguments: q, k, v : [4, 2048, 1024]; mask : [1, 2048, 2048]; Wq, Wk, Wv : [1, 1, 1024, 1024]; bq, bk, bv : [1024].
  Over the extended reals (a float is an extended real here, and there is no rounding):

    proj x W c (b, s, e)   = max (Σ_{d<1024} x(b,s,d) · W(0,0,d,e) + c(e)) 0
    score (b, p, r)        = max (Σ_{e<1024} proj q Wq bq (b,p,e) · proj k Wk bk (b,r,e)) 0
    attn (b, p, e)         = max (Σ_{r<2048} (score (b,p,r) / √1024 + mask(0,p,r)) · proj v Wv bv (b,r,e)) 0

  `attn` is the result index by index; `G` is the array. The float literals stay as the words the programs
  print (the zero word, 1024.0 = 0x44800000, 2⁻⁵ = 0x3D000000); they are evaluated only where a law needs their value:
  `div_sqrt_1024` (a quotient by √1024 is the product with 2⁻⁵, on every extended real) and the regrouping of a
  sum over 2048 keys into four consecutive tiles of 512 added one after another onto zero (`sum_tiles`): the extended reals
  are a commutative additive monoid, so the regrouping needs no finiteness.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.AttnSpec

open Idealize.ShloMosaic Idealize.ShloMosaic.ValueIdx

/-- The word of `+0.0`. -/
abbrev zeroW : EReal := Ideal.ofBits .f32 0x00000000#32
/-- The word of `1024.0`, the reference's head dimension before its square root. -/
abbrev dW : EReal := Ideal.ofBits .f32 0x44800000#32
/-- The word of `2⁻⁵`, the kernel's folded scale. -/
abbrev scaleW : EReal := Ideal.ofBits .f32 0x3D000000#32

/-- One fused projection at an element: `max (Σ_d x(b,s,d) · W(0,0,d,e) + c(e)) 0`. -/
def proj (x : FVec Ideal ⟨3, ![4, 2048, 1024]⟩ .f32) (W : FVec Ideal ⟨4, ![1, 1, 1024, 1024]⟩ .f32)
    (c : FVec Ideal ⟨1, ![1024]⟩ .f32) (b : Fin 4) (s : Fin 2048) (e : Fin 1024) : EReal :=
  max (∑ d : Fin 1024, x (ix3 b s d) * W (ix4 (0 : Fin 1) (0 : Fin 1) d e) + c (ix1 e)) zeroW

/-- The rectified score of query row `p` against key row `r` in batch `b`. -/
def score (q k : FVec Ideal ⟨3, ![4, 2048, 1024]⟩ .f32) (Wq Wk : FVec Ideal ⟨4, ![1, 1, 1024, 1024]⟩ .f32)
    (bq bk : FVec Ideal ⟨1, ![1024]⟩ .f32) (b : Fin 4) (p r : Fin 2048) : EReal :=
  max (∑ e : Fin 1024, proj q Wq bq b p e * proj k Wk bk b r e) zeroW

/-- The summand of key row `r` in the reference's arrangement: the score over `√1024`, plus the mask, times the value row. -/
def refTerm (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) (r : Fin 2048) : EReal :=
  (Ideal.div (score q k Wq Wk bq bk b p r) (Ideal.sqrt dW) + mask (ix3 (0 : Fin 1) p r)) * proj v Wv bv b r e

/-- The summand of key row `r` in the kernel's arrangement: the score times `2⁻⁵`, plus the mask, times the value row. -/
def kerTerm (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) (r : Fin 2048) : EReal :=
  (score q k Wq Wk bq bk b p r * scaleW + mask (ix3 (0 : Fin 1) p r)) * proj v Wv bv b r e

/-- The result at `(b, p, e)`: the rectified sum over all 2048 key rows. -/
def attn (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) : EReal :=
  max (∑ r : Fin 2048, refTerm q k v mask Wq Wk Wv bq bk bv b p e r) zeroW

/-- THE SPECIFICATION: the result array as one function of the ten argument arrays. -/
def G (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32) :
    FVec Ideal ⟨3, ![4, 2048, 1024]⟩ .f32 :=
  fun i => attn q k v mask Wq Wk Wv bq bk bv (i 0) (i 1) (i 2)

/-- `G` at an index given by its coordinates. -/
theorem G_apply (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) :
    G q k v mask Wq Wk Wv bq bk bv (ix3 b p e) = attn q k v mask Wq Wk Wv bq bk bv b p e := rfl

/-! ## The two constants -/

/-- The word `0x44800000` denotes 1024. -/
theorem dW_eq : dW = ((1024 : ℝ) : EReal) := by
  simp [Ideal.ofBits, Ideal.ieee, -EReal.coe_mul]; norm_num

/-- The word `0x3D000000` denotes 1/32. -/
theorem scaleW_eq : scaleW = ((1 / 32 : ℝ) : EReal) := by
  simp [Ideal.ofBits, Ideal.ieee, -EReal.coe_mul]; norm_num

/-- The square root of 1024 is 32. -/
theorem sqrt_dW : Ideal.sqrt dW = ((32 : ℝ) : EReal) := by
  rw [dW_eq, Ideal.sqrt_coe, if_neg (by norm_num)]
  have h : Real.sqrt 1024 = 32 := by
    rw [show (1024 : ℝ) = 32 ^ 2 by norm_num]
    exact Real.sqrt_sq (by norm_num)
  rw [h]

/-- A quotient by `√1024` is the product with `2⁻⁵`, on every extended real. -/
theorem div_sqrt_1024 (x : EReal) : Ideal.div x (Ideal.sqrt dW) = x * scaleW := by
  rw [sqrt_dW, scaleW_eq, Ideal.div_coe (by norm_num)]

/-- So the reference's summand is the kernel's. -/
theorem refTerm_eq_kerTerm (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) (r : Fin 2048) :
    refTerm q k v mask Wq Wk Wv bq bk bv b p e r = kerTerm q k v mask Wq Wk Wv bq bk bv b p e r := by
  unfold refTerm kerTerm
  rw [div_sqrt_1024]

/-! ## The tiling of the key axis -/

/-- A sum over 2048 keys is its four consecutive tiles of 512 added one after another onto zero. -/
theorem sum_tiles {M : Type*} [AddCommMonoid M] (f : Fin 2048 → M) :
    (∑ r : Fin 2048, f r)
      = (((0 + ∑ r' : Fin 512, f ⟨r'.val, by omega⟩) + ∑ r' : Fin 512, f ⟨512 + r'.val, by omega⟩)
          + ∑ r' : Fin 512, f ⟨1024 + r'.val, by omega⟩) + ∑ r' : Fin 512, f ⟨1536 + r'.val, by omega⟩ := by
  have h3 := Fin.sum_univ_add (a := 1536) (b := 512) (f := f)
  have h2 := Fin.sum_univ_add (a := 1024) (b := 512) (f := fun i : Fin 1536 => f (Fin.castAdd 512 i))
  have h1 := Fin.sum_univ_add (a := 512) (b := 512) (f := fun i : Fin 1024 => f (Fin.castAdd 512 (Fin.castAdd 512 i)))
  rw [zero_add]
  exact h3.trans (congrArg (· + _) (h2.trans (congrArg (· + _) h1)))

/-- The same regrouping with the tiles counted by a natural number `s` below 4: tile `s` holds the keys
    `512 · s + r'`. The summand is written for every natural `s` (zero where the key would pass 2048, which no
    `s` below 4 reaches), so that the law meets a sum of per-tile addends indexed by `Finset.range 4`. -/
theorem sum_key_tiles {M : Type*} [AddCommMonoid M] (f : Fin 2048 → M) :
    (∑ r : Fin 2048, f r)
      = 0 + ∑ s ∈ Finset.range 4, ∑ r' : Fin 512,
          (if h : 512 * s + r'.val < 2048 then f ⟨512 * s + r'.val, h⟩ else 0) := by
  have hr : ∀ F : ℕ → M, ∑ s ∈ Finset.range 4, F s = ((F 0 + F 1) + F 2) + F 3 := fun F => by
    simp [Finset.sum_range_succ]
  have e0 : (∑ r' : Fin 512, (if h : 512 * 0 + r'.val < 2048 then f ⟨512 * 0 + r'.val, h⟩ else 0))
      = ∑ r' : Fin 512, f ⟨r'.val, by omega⟩ :=
    Finset.sum_congr rfl fun r' _ => (dif_pos (by omega)).trans (congrArg f (Fin.ext (by simp)))
  have e1 : (∑ r' : Fin 512, (if h : 512 * 1 + r'.val < 2048 then f ⟨512 * 1 + r'.val, h⟩ else 0))
      = ∑ r' : Fin 512, f ⟨512 + r'.val, by omega⟩ :=
    Finset.sum_congr rfl fun r' _ => (dif_pos (by omega)).trans (congrArg f (Fin.ext (by simp)))
  have e2 : (∑ r' : Fin 512, (if h : 512 * 2 + r'.val < 2048 then f ⟨512 * 2 + r'.val, h⟩ else 0))
      = ∑ r' : Fin 512, f ⟨1024 + r'.val, by omega⟩ :=
    Finset.sum_congr rfl fun r' _ => (dif_pos (by omega)).trans (congrArg f (Fin.ext (by simp)))
  have e3 : (∑ r' : Fin 512, (if h : 512 * 3 + r'.val < 2048 then f ⟨512 * 3 + r'.val, h⟩ else 0))
      = ∑ r' : Fin 512, f ⟨1536 + r'.val, by omega⟩ :=
    Finset.sum_congr rfl fun r' _ => (dif_pos (by omega)).trans (congrArg f (Fin.ext (by simp)))
  rw [sum_tiles f, hr, e0, e1, e2, e3, zero_add, zero_add]

/-- THE LAW BETWEEN THE TWO ARRANGEMENTS, at an element: the specification's result is the rectified sum, onto zero,
    of the four key tiles' sums of the kernel's summands. -/
theorem attn_eq_key_tiles (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) :
    attn q k v mask Wq Wk Wv bq bk bv b p e
      = max (0 + ∑ s ∈ Finset.range 4, ∑ r' : Fin 512,
          (if h : 512 * s + r'.val < 2048 then kerTerm q k v mask Wq Wk Wv bq bk bv b p e ⟨512 * s + r'.val, h⟩ else 0)) zeroW := by
  unfold attn
  rw [sum_key_tiles (fun r => refTerm q k v mask Wq Wk Wv bq bk bv b p e r)]
  simp only [refTerm_eq_kerTerm]

/-- The same law under the name of what it does: the result re-expressed in the tiled arrangement. -/
theorem attn_as_tiles (q k v : FVec Ideal ⟨3, ![4, 2048, 1024]⟩ .f32) (mask : FVec Ideal ⟨3, ![1, 2048, 2048]⟩ .f32)
    (Wq Wk Wv : FVec Ideal ⟨4, ![1, 1, 1024, 1024]⟩ .f32) (bq bk bv : FVec Ideal ⟨1, ![1024]⟩ .f32)
    (b : Fin 4) (p : Fin 2048) (e : Fin 1024) :
    attn q k v mask Wq Wk Wv bq bk bv b p e
      = max (0 + ∑ s ∈ Finset.range 4, ∑ r' : Fin 512,
          (if h : 512 * s + r'.val < 2048 then kerTerm q k v mask Wq Wk Wv bq bk bv b p e ⟨512 * s + r'.val, h⟩ else 0)) zeroW :=
  attn_eq_key_tiles q k v mask Wq Wk Wv bq bk bv b p e

end Cert.AttnSpec

end
-- ==== Proof.KernelShape.lean ====
/-
  The arrangement in which the kernel computes the result, as functions of plain arrays of extended reals.

  `projK`: one fused projection over the flattened rows, `[8192, 1024] · [1024, 1024] + [1, 1024]`, rectified:
      projK x w c (row, e) = max (Σ_{d<1024} x(row, d) · w(d, e) + c(0, e)) 0.
  `attnK`: the attention over projected arrays `Q, K, V : [4, 2048, 1024]` and a mask `M : [1, 2048, 2048]`, the 2048 keys
  taken in four consecutive tiles of 512, each tile's sum added in turn onto the zero word, the total rectified:
      attnK Q K V M (b, p, e) = max (0 + Σ_{s<4} Σ_{r<512} (max (Σ_d Q(b,p,d) · K(b,512s+r,d)) 0 · 2⁻⁵ + M(0,p,512s+r)) · V(b,512s+r,e)) 0.
  The summand is written for every natural `s` (zero where the key would pass 2048, which no `s` below 4 reaches).
-/
import proofs.«147016_j57062935495338_2_alg».proof.Proof.Spec

noncomputable section

open scoped BigOperators

namespace Cert.AttnSpec

open Idealize.ShloMosaic Idealize.ShloMosaic.ValueIdx

/-- One fused projection over flattened rows, at `(row, e)`. -/
def projKat (x : (⟨2, ![8192, 1024]⟩ : Shape).Idx → EReal) (w : (⟨2, ![1024, 1024]⟩ : Shape).Idx → EReal)
    (c : (⟨2, ![1, 1024]⟩ : Shape).Idx → EReal) (row : Fin 8192) (e : Fin 1024) : EReal :=
  max (∑ d : Fin 1024, x (ix2 row d) * w (ix2 d e) + c (ix2 (0 : Fin 1) e)) zeroW

/-- One fused projection over flattened rows, as an array. -/
def projK (x : (⟨2, ![8192, 1024]⟩ : Shape).Idx → EReal) (w : (⟨2, ![1024, 1024]⟩ : Shape).Idx → EReal)
    (c : (⟨2, ![1, 1024]⟩ : Shape).Idx → EReal) : (⟨2, ![8192, 1024]⟩ : Shape).Idx → EReal :=
  fun i => projKat x w c (i 0) (i 1)

/-- `projK` at an index given by its coordinates. -/
theorem projK_apply (x : (⟨2, ![8192, 1024]⟩ : Shape).Idx → EReal) (w : (⟨2, ![1024, 1024]⟩ : Shape).Idx → EReal)
    (c : (⟨2, ![1, 1024]⟩ : Shape).Idx → EReal) (row : Fin 8192) (e : Fin 1024) :
    projK x w c (ix2 row e)
      = max (∑ d : Fin 1024, x (ix2 row d) * w (ix2 d e) + c (ix2 (0 : Fin 1) e)) zeroW := rfl

/-- The tiled attention at `(b, p, e)`. -/
def attnKat (Q K Vv : (⟨3, ![4, 2048, 1024]⟩ : Shape).Idx → EReal) (M : (⟨3, ![1, 2048, 2048]⟩ : Shape).Idx → EReal)
    (b : Fin 4) (p : Fin 2048) (e : Fin 1024) : EReal :=
  max (zeroW + ∑ s ∈ Finset.range 4, ∑ r : Fin 512,
    if h : 512 * s + r.val < 2048 then
      (max (∑ d : Fin 1024, Q (ix3 b p d) * K (ix3 b (⟨512 * s + r.val, h⟩ : Fin 2048) d)) zeroW * scaleW
        + M (ix3 (0 : Fin 1) p (⟨512 * s + r.val, h⟩ : Fin 2048))) * Vv (ix3 b (⟨512 * s + r.val, h⟩ : Fin 2048) e)
    else 0) zeroW

/-- The tiled attention, as an array. -/
def attnK (Q K Vv : (⟨3, ![4, 2048, 1024]⟩ : Shape).Idx → EReal) (M : (⟨3, ![1, 2048, 2048]⟩ : Shape).Idx → EReal) :
    (⟨3, ![4, 2048, 1024]⟩ : Shape).Idx → EReal :=
  fun i => attnKat Q K Vv M (i 0) (i 1) (i 2)

/-- `attnK` at an index given by its coordinates. -/
theorem attnK_apply (Q K Vv : (⟨3, ![4, 2048, 1024]⟩ : Shape).Idx → EReal) (M : (⟨3, ![1, 2048, 2048]⟩ : Shape).Idx → EReal)
    (b : Fin 4) (p : Fin 2048) (e : Fin 1024) :
    attnK Q K Vv M (ix3 b p e)
      = max (zeroW + ∑ s ∈ Finset.range 4, ∑ r : Fin 512,
          if h : 512 * s + r.val < 2048 then
            (max (∑ d : Fin 1024, Q (ix3 b p d) * K (ix3 b (⟨512 * s + r.val, h⟩ : Fin 2048) d)) zeroW * scaleW
              + M (ix3 (0 : Fin 1) p (⟨512 * s + r.val, h⟩ : Fin 2048))) * Vv (ix3 b (⟨512 * s + r.val, h⟩ : Fin 2048) e)
          else 0) zeroW := rfl

end Cert.AttnSpec

end
-- ==== Proof.ProjValue.lean ====
/- The value of the three projection regions at the ideal (extended-real) values: after its region, the output
   array of each projection is the specification  max (x · W + b) 0  of the three arrays the region finds,
   index by index.

   Three steps per projection. At an element (p, q) of a tile, the payload is the sum over the contraction axis of
   the x tile's row p times W's column q, plus the bias at q, clamped at zero. The tile written back at grid point t
   is therefore rows 1024·t … 1024·t + 1023 of the specification, because the x tile at t is those rows of x and
   W and the bias row are the same whole arrays at every point. The 8 tiles cover the 8192 rows, row r lying in
   the tile of point r / 1024, so the array ends equal to the specification everywhere. -/
import proofs.«147016_j57062935495338_2_alg».proof.Proof.ProjRegions
import proofs.«147016_j57062935495338_2_alg».proof.Proof.KernelShape
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal.Gen Idealize.ShloMosaic Idealize.ShloMosaic.TcCoe Idealize.SL.Sem Idealize.ShloMosaic.ValueIdx
open Idealize.ShloMosaic.Pipeline (Dat)
open scoped BigOperators
/-- The four coordinates of the contraction's operand indices: output (p, q) and contraction position k read the
    left operand at (p, k) and the right at (k, q). -/
theorem projDot_lhs0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem projDot_lhs1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
theorem projDot_rhs0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
theorem projDot_rhs1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

set_option maxHeartbeats 400000 in
/-- The first projection's payload at an element: the contraction of row p of the x tile with column q of W, plus
    the bias at q, clamped below at zero. At the ideal values the two roundings to bf16 and the shape casts to the
    same shape are the identity, and the product into a zero accumulator is the plain sum over the contraction. -/
theorem projPay0_at (x0 : Vec Ideal S1024x1024 .f32) (x1 : Vec Ideal S1024x1024 .bf16) (x2 : Vec Ideal S1x1024 .f32) (p q : Fin 1024) :
    k0_pay1 x0 x1 x2 (ix2 p q)
      = max (∑ d : Fin 1024, x0 (ix2 p d) * x1 (ix2 d q) + x2 (ix2 (0 : Fin 1) q)) (Ideal.ofBits .f32 0x00000000#32) := by
  unfold k0_pay1
  simp only [shapeCast_self]
  rw [truncf_apply, maximumf_apply, addf_apply, broadcast_apply, broadcastTo_1b_ab_apply]
  simp only [matmul]
  rw [Ideal.matmul_constant_zero_apply,
    ← Equiv.sum_comp (contrEquiv1 dot_S1024x1024_S1024x1024_S1024x1024_1_0_0_1_n_n 1024 rfl rfl).symm]
  refine congrArg₂ max (congrArg (· + x2 (ix2 (0 : Fin 1) q)) (Finset.sum_congr rfl fun k _ => ?_)) rfl
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact projDot_lhs0 _ _
    | ⟨1, _⟩ => exact (projDot_lhs1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (projDot_rhs0 _ _).trans hk
    | ⟨1, _⟩ => exact projDot_rhs1 _ _)
  rw [truncf_apply, el, er]

set_option maxHeartbeats 400000 in
/-- The second projection's payload at an element: the contraction of row p of the x tile with column q of W, plus
    the bias at q, clamped below at zero. At the ideal values the two roundings to bf16 and the shape casts to the
    same shape are the identity, and the product into a zero accumulator is the plain sum over the contraction. -/
theorem projPay1_at (x0 : Vec Ideal S1024x1024 .f32) (x1 : Vec Ideal S1024x1024 .bf16) (x2 : Vec Ideal S1x1024 .f32) (p q : Fin 1024) :
    k1_pay1 x0 x1 x2 (ix2 p q)
      = max (∑ d : Fin 1024, x0 (ix2 p d) * x1 (ix2 d q) + x2 (ix2 (0 : Fin 1) q)) (Ideal.ofBits .f32 0x00000000#32) := by
  unfold k1_pay1
  simp only [shapeCast_self]
  rw [truncf_apply, maximumf_apply, addf_apply, broadcast_apply, broadcastTo_1b_ab_apply]
  simp only [matmul]
  rw [Ideal.matmul_constant_zero_apply,
    ← Equiv.sum_comp (contrEquiv1 dot_S1024x1024_S1024x1024_S1024x1024_1_0_0_1_n_n 1024 rfl rfl).symm]
  refine congrArg₂ max (congrArg (· + x2 (ix2 (0 : Fin 1) q)) (Finset.sum_congr rfl fun k _ => ?_)) rfl
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact projDot_lhs0 _ _
    | ⟨1, _⟩ => exact (projDot_lhs1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (projDot_rhs0 _ _).trans hk
    | ⟨1, _⟩ => exact projDot_rhs1 _ _)
  rw [truncf_apply, el, er]

set_option maxHeartbeats 400000 in
/-- The third projection's payload at an element: the contraction of row p of the x tile with column q of W, plus
    the bias at q, clamped below at zero. At the ideal values the two roundings to bf16 and the shape casts to the
    same shape are the identity, and the product into a zero accumulator is the plain sum over the contraction. -/
theorem projPay2_at (x0 : Vec Ideal S1024x1024 .f32) (x1 : Vec Ideal S1024x1024 .bf16) (x2 : Vec Ideal S1x1024 .f32) (p q : Fin 1024) :
    k2_pay1 x0 x1 x2 (ix2 p q)
      = max (∑ d : Fin 1024, x0 (ix2 p d) * x1 (ix2 d q) + x2 (ix2 (0 : Fin 1) q)) (Ideal.ofBits .f32 0x00000000#32) := by
  unfold k2_pay1
  simp only [shapeCast_self]
  rw [truncf_apply, maximumf_apply, addf_apply, broadcast_apply, broadcastTo_1b_ab_apply]
  simp only [matmul]
  rw [Ideal.matmul_constant_zero_apply,
    ← Equiv.sum_comp (contrEquiv1 dot_S1024x1024_S1024x1024_S1024x1024_1_0_0_1_n_n 1024 rfl rfl).symm]
  refine congrArg₂ max (congrArg (· + x2 (ix2 (0 : Fin 1) q)) (Finset.sum_congr rfl fun k _ => ?_)) rfl
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact projDot_lhs0 _ _
    | ⟨1, _⟩ => exact (projDot_lhs1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (projDot_rhs0 _ _).trans hk
    | ⟨1, _⟩ => exact projDot_rhs1 _ _)
  rw [truncf_apply, el, er]

open Cert.AttnSpec

/-- The specification at a row, from three blocks that agree with the arrays where the specification reads them:
    the left factor's row p is the array's row `row`, the right factor and the bias row are the arrays' own. -/
theorem projK_of_blocks (X : (⟨2, ![8192, 1024]⟩ : Shape).Idx → EReal) (W : (⟨2, ![1024, 1024]⟩ : Shape).Idx → EReal)
    (B : (⟨2, ![1, 1024]⟩ : Shape).Idx → EReal)
    (x0 : Vec Ideal S1024x1024 .f32) (x1 : Vec Ideal S1024x1024 .bf16) (x2 : Vec Ideal S1x1024 .f32)
    (row : Fin 8192) (p q : Fin 1024)
    (h0 : ∀ d : Fin 1024, x0 (ix2 p d) = X (ix2 row d)) (h1 : ∀ d : Fin 1024, x1 (ix2 d q) = W (ix2 d q))
    (h2 : x2 (ix2 (0 : Fin 1) q) = B (ix2 (0 : Fin 1) q)) :
    max (∑ d : Fin 1024, x0 (ix2 p d) * x1 (ix2 d q) + x2 (ix2 (0 : Fin 1) q)) (Ideal.ofBits .f32 0x00000000#32)
      = projK X W B (ix2 row q) := by
  rw [projK_apply, h2]
  simp only [h0, h1]

section Value
variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-! ## The first projection -/

/-- Its index maps, decided over the 8 grid points: the x tile and the output tile sit at row block t, on the one
    column block; W and the bias row are a single block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Where a block's element sits in its array: on each axis, block index × block extent + the coordinate inside
    the block. The output tile and the x tile at point t hold rows 1024·t … 1024·t + 1023; W and the bias row
    are whole. -/
theorem emb0_3 (t : Fin cfg0.N) (p q : Fin 1024) (hrow : t.val * 1024 + p.val < 8192) :
    ((cfg0.win 3).blk t).view.emb (ix2 p q) = ix2 (⟨t.val * 1024 + p.val, hrow⟩ : Fin 8192) q := by
  obtain ⟨e00, e01, e10, e11, e20, e21, e30, e31⟩ := idx_facts0 t
  funext a; apply Fin.ext
  match a with
  | ⟨0, _⟩ => show win0_3.index t (0 : Fin 2) * 1024 + 1 * p.val = t.val * 1024 + p.val; omega
  | ⟨1, _⟩ => show win0_3.index t (1 : Fin 2) * 1024 + 1 * q.val = q.val; omega
theorem emb0_0 (t : Fin cfg0.N) (p d : Fin 1024) (hrow : t.val * 1024 + p.val < 8192) :
    ((cfg0.win 0).blk t).view.emb (ix2 p d) = ix2 (⟨t.val * 1024 + p.val, hrow⟩ : Fin 8192) d := by
  obtain ⟨e00, e01, e10, e11, e20, e21, e30, e31⟩ := idx_facts0 t
  funext a; apply Fin.ext
  match a with
  | ⟨0, _⟩ => show win0_0.index t (0 : Fin 2) * 1024 + 1 * p.val = t.val * 1024 + p.val; omega
  | ⟨1, _⟩ => show win0_0.index t (1 : Fin 2) * 1024 + 1 * d.val = d.val; omega
theorem emb0_1 (t : Fin cfg0.N) (d q : Fin 1024) : ((cfg0.win 1).blk t).view.emb (ix2 d q) = ix2 d q := by
  obtain ⟨e00, e01, e10, e11, e20, e21, e30, e31⟩ := idx_facts0 t
  funext a; apply Fin.ext
  match a with
  | ⟨0, _⟩ => show win0_1.index t (0 : Fin 2) * 1024 + 1 * d.val = d.val; omega
  | ⟨1, _⟩ => show win0_1.index t (1 : Fin 2) * 1024 + 1 * q.val = q.val; omega
theorem emb0_2 (t : Fin cfg0.N) (q : Fin 1024) : ((cfg0.win 2).blk t).view.emb (ix2 (0 : Fin 1) q) = ix2 (0 : Fin 1) q := by
  obtain ⟨e00, e01, e10, e11, e20, e21, e30, e31⟩ := idx_facts0 t
  funext a; apply Fin.ext
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

set_option maxHeartbeats 400000 in
/-- What point t writes back is block t of the specification of the three arrays as the region finds them. -/
theorem flushed0_eq (c : Dev nD) (t : Fin cfg0.N) :
    (dat0 V c).flushed 3 t = ((cfg0.win 3).blk t).view.read (Elt Ideal) (projK (V c main_v6) (V c main_v3) (V c main_v9)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  funext j
  obtain ⟨p, q, rfl⟩ : ∃ (p : Fin 1024) (q : Fin 1024), j = ix2 p q := ⟨j 0, j 1, eq_ix2 j⟩
  refine (projPay0_at (iblk0 V c 0 t) (iblk0 V c 1 t) (iblk0 V c 2 t) p q).trans ?_
  have ht : t.val < 8 := lt_of_lt_of_eq t.isLt N_0
  have hp : p.val < 1024 := p.isLt
  have hrow : t.val * 1024 + p.val < 8192 := by omega
  refine Eq.trans ?_ (congrArg (projK (V c main_v6) (V c main_v3) (V c main_v9)) (emb0_3 t p q hrow).symm)
  exact projK_of_blocks (V c main_v6) (V c main_v3) (V c main_v9) (iblk0 V c 0 t) (iblk0 V c 1 t) (iblk0 V c 2 t) ⟨_, hrow⟩ p q
    (fun d => congrArg (V c main_v6) (emb0_0 t p d hrow)) (fun d => congrArg (V c main_v3) (emb0_1 t d q))
    (congrArg (V c main_v9) (emb0_2 t q))

/-- An index of the output array is in point t's tile iff each coordinate is in the tile's range on its axis. -/
theorem mem_blk0 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v12).slice (win0_3.rect t)).set ↔ _
  rw [View.set_slice_whole, Rect.mem_set_unit]
  exact Iff.rfl

/-- The 8 output tiles cover the array: row r is in the tile of point r / 1024, and every point writes its tile back. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : (i 0).val / 1024 < cfg0.N := lt_of_lt_of_eq (by omega : (i 0).val / 1024 < 8) N_0.symm
  refine ⟨⟨(i 0).val / 1024, hN⟩, flush0_3 _, ?_⟩
  obtain ⟨-, -, -, -, -, -, e30, e31⟩ := idx_facts0 ⟨(i 0).val / 1024, hN⟩
  have e30' : win0_3.index ⟨(i 0).val / 1024, hN⟩ (0 : Fin 2) = (i 0).val / 1024 := e30
  rw [mem_blk0]
  intro a
  match a with
  | ⟨0, _⟩ => show win0_3.index ⟨(i 0).val / 1024, hN⟩ (0 : Fin 2) * 1024 ≤ (i 0).val ∧ (i 0).val < win0_3.index ⟨(i 0).val / 1024, hN⟩ (0 : Fin 2) * 1024 + 1024; omega
  | ⟨1, _⟩ => show win0_3.index ⟨(i 0).val / 1024, hN⟩ (1 : Fin 2) * 1024 ≤ (i 1).val ∧ (i 1).val < win0_3.index ⟨(i 0).val / 1024, hN⟩ (1 : Fin 2) * 1024 + 1024; omega

/-- The output array of the first projection after its region: the specification of the three arrays as the
    region finds them. -/
theorem proj0_final (c : Dev nD) : (dat0 V c).arrAt 3 cfg0.N = projK (V c main_v6) (V c main_v3) (V c main_v9) :=
  (dat0 V c).arrAt_eq_of_cover 3 _ (fun t _ => flushed0_eq V c t) cover0

/-! ## The second projection -/

/-- Its index maps, decided over the 8 grid points: the x tile and the output tile sit at row block t, on the one
    column block; W and the bias row are a single block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Where a block's element sits in its array: on each axis, block index × block extent + the coordinate inside
    the block. The output tile and the x tile at point t hold rows 1024·t … 1024·t + 1023; W and the bias row
    are whole. -/
theorem emb1_3 (t : Fin cfg1.N) (p q : Fin 1024) (hrow : t.val * 1024 + p.val < 8192) :
    ((cfg1.win 3).blk t).view.emb (ix2 p q) = ix2 (⟨t.val * 1024 + p.val, hrow⟩ : Fin 8192) q := by
  obtain ⟨e00, e01, e10, e11, e20, e21, e30, e31⟩ := idx_facts1 t
  funext a; apply Fin.ext
  match a with
  | ⟨0, _⟩ => show win1_3.index t (0 : Fin 2) * 1024 + 1 * p.val = t.val * 1024 + p.val; omega
  | ⟨1, _⟩ => show win1_3.index t (1 : Fin 2) * 1024 + 1 * q.val = q.val; omega
theorem emb1_0 (t : Fin cfg1.N) (p d : Fin 1024) (hrow : t.val * 1024 + p.val < 8192) :
    ((cfg1.win 0).blk t).view.emb (ix2 p d) = ix2 (⟨t.val * 1024 + p.val, hrow⟩ : Fin 8192) d := by
  obtain ⟨e00, e01, e10, e11, e20, e21, e30, e31⟩ := idx_facts1 t
  funext a; apply Fin.ext
  match a with
  | ⟨0, _⟩ => show win1_0.index t (0 : Fin 2) * 1024 + 1 * p.val = t.val * 1024 + p.val; omega
  | ⟨1, _⟩ => show win1_0.index t (1 : Fin 2) * 1024 + 1 * d.val = d.val; omega
theorem emb1_1 (t : Fin cfg1.N) (d q : Fin 1024) : ((cfg1.win 1).blk t).view.emb (ix2 d q) = ix2 d q := by
  obtain ⟨e00, e01, e10, e11, e20, e21, e30, e31⟩ := idx_facts1 t
  funext a; apply Fin.ext
  match a with
  | ⟨0, _⟩ => show win1_1.index t (0 : Fin 2) * 1024 + 1 * d.val = d.val; omega
  | ⟨1, _⟩ => show win1_1.index t (1 : Fin 2) * 1024 + 1 * q.val = q.val; omega
theorem emb1_2 (t : Fin cfg1.N) (q : Fin 1024) : ((cfg1.win 2).blk t).view.emb (ix2 (0 : Fin 1) q) = ix2 (0 : Fin 1) q := by
  obtain ⟨e00, e01, e10, e11, e20, e21, e30, e31⟩ := idx_facts1 t
  funext a; apply Fin.ext
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

set_option maxHeartbeats 400000 in
/-- What point t writes back is block t of the specification of the three arrays as the region finds them. -/
theorem flushed1_eq (c : Dev nD) (t : Fin cfg1.N) :
    (dat1 V c).flushed 3 t = ((cfg1.win 3).blk t).view.read (Elt Ideal) (projK (V c main_v7) (V c main_v4) (V c main_v10)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  funext j
  obtain ⟨p, q, rfl⟩ : ∃ (p : Fin 1024) (q : Fin 1024), j = ix2 p q := ⟨j 0, j 1, eq_ix2 j⟩
  refine (projPay1_at (iblk1 V c 0 t) (iblk1 V c 1 t) (iblk1 V c 2 t) p q).trans ?_
  have ht : t.val < 8 := lt_of_lt_of_eq t.isLt N_1
  have hp : p.val < 1024 := p.isLt
  have hrow : t.val * 1024 + p.val < 8192 := by omega
  refine Eq.trans ?_ (congrArg (projK (V c main_v7) (V c main_v4) (V c main_v10)) (emb1_3 t p q hrow).symm)
  exact projK_of_blocks (V c main_v7) (V c main_v4) (V c main_v10) (iblk1 V c 0 t) (iblk1 V c 1 t) (iblk1 V c 2 t) ⟨_, hrow⟩ p q
    (fun d => congrArg (V c main_v7) (emb1_0 t p d hrow)) (fun d => congrArg (V c main_v4) (emb1_1 t d q))
    (congrArg (V c main_v10) (emb1_2 t q))

/-- An index of the output array is in point t's tile iff each coordinate is in the tile's range on its axis. -/
theorem mem_blk1 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v14).slice (win1_3.rect t)).set ↔ _
  rw [View.set_slice_whole, Rect.mem_set_unit]
  exact Iff.rfl

/-- The 8 output tiles cover the array: row r is in the tile of point r / 1024, and every point writes its tile back. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : (i 0).val / 1024 < cfg1.N := lt_of_lt_of_eq (by omega : (i 0).val / 1024 < 8) N_1.symm
  refine ⟨⟨(i 0).val / 1024, hN⟩, flush1_3 _, ?_⟩
  obtain ⟨-, -, -, -, -, -, e30, e31⟩ := idx_facts1 ⟨(i 0).val / 1024, hN⟩
  have e30' : win1_3.index ⟨(i 0).val / 1024, hN⟩ (0 : Fin 2) = (i 0).val / 1024 := e30
  rw [mem_blk1]
  intro a
  match a with
  | ⟨0, _⟩ => show win1_3.index ⟨(i 0).val / 1024, hN⟩ (0 : Fin 2) * 1024 ≤ (i 0).val ∧ (i 0).val < win1_3.index ⟨(i 0).val / 1024, hN⟩ (0 : Fin 2) * 1024 + 1024; omega
  | ⟨1, _⟩ => show win1_3.index ⟨(i 0).val / 1024, hN⟩ (1 : Fin 2) * 1024 ≤ (i 1).val ∧ (i 1).val < win1_3.index ⟨(i 0).val / 1024, hN⟩ (1 : Fin 2) * 1024 + 1024; omega

/-- The output array of the second projection after its region: the specification of the three arrays as the
    region finds them. -/
theorem proj1_final (c : Dev nD) : (dat1 V c).arrAt 3 cfg1.N = projK (V c main_v7) (V c main_v4) (V c main_v10) :=
  (dat1 V c).arrAt_eq_of_cover 3 _ (fun t _ => flushed1_eq V c t) cover1

/-! ## The third projection -/

/-- Its index maps, decided over the 8 grid points: the x tile and the output tile sit at row block t, on the one
    column block; W and the bias row are a single block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Where a block's element sits in its array: on each axis, block index × block extent + the coordinate inside
    the block. The output tile and the x tile at point t hold rows 1024·t … 1024·t + 1023; W and the bias row
    are whole. -/
theorem emb2_3 (t : Fin cfg2.N) (p q : Fin 1024) (hrow : t.val * 1024 + p.val < 8192) :
    ((cfg2.win 3).blk t).view.emb (ix2 p q) = ix2 (⟨t.val * 1024 + p.val, hrow⟩ : Fin 8192) q := by
  obtain ⟨e00, e01, e10, e11, e20, e21, e30, e31⟩ := idx_facts2 t
  funext a; apply Fin.ext
  match a with
  | ⟨0, _⟩ => show win2_3.index t (0 : Fin 2) * 1024 + 1 * p.val = t.val * 1024 + p.val; omega
  | ⟨1, _⟩ => show win2_3.index t (1 : Fin 2) * 1024 + 1 * q.val = q.val; omega
theorem emb2_0 (t : Fin cfg2.N) (p d : Fin 1024) (hrow : t.val * 1024 + p.val < 8192) :
    ((cfg2.win 0).blk t).view.emb (ix2 p d) = ix2 (⟨t.val * 1024 + p.val, hrow⟩ : Fin 8192) d := by
  obtain ⟨e00, e01, e10, e11, e20, e21, e30, e31⟩ := idx_facts2 t
  funext a; apply Fin.ext
  match a with
  | ⟨0, _⟩ => show win2_0.index t (0 : Fin 2) * 1024 + 1 * p.val = t.val * 1024 + p.val; omega
  | ⟨1, _⟩ => show win2_0.index t (1 : Fin 2) * 1024 + 1 * d.val = d.val; omega
theorem emb2_1 (t : Fin cfg2.N) (d q : Fin 1024) : ((cfg2.win 1).blk t).view.emb (ix2 d q) = ix2 d q := by
  obtain ⟨e00, e01, e10, e11, e20, e21, e30, e31⟩ := idx_facts2 t
  funext a; apply Fin.ext
  match a with
  | ⟨0, _⟩ => show win2_1.index t (0 : Fin 2) * 1024 + 1 * d.val = d.val; omega
  | ⟨1, _⟩ => show win2_1.index t (1 : Fin 2) * 1024 + 1 * q.val = q.val; omega
theorem emb2_2 (t : Fin cfg2.N) (q : Fin 1024) : ((cfg2.win 2).blk t).view.emb (ix2 (0 : Fin 1) q) = ix2 (0 : Fin 1) q := by
  obtain ⟨e00, e01, e10, e11, e20, e21, e30, e31⟩ := idx_facts2 t
  funext a; apply Fin.ext
  match a with
  | ⟨0, _⟩ => show win2_2.index t (0 : Fin 2) * 1 + 1 * (0 : Fin 1).val = (0 : Fin 1).val; omega
  | ⟨1, _⟩ => show win2_2.index t (1 : Fin 2) * 1024 + 1 * q.val = q.val; omega

set_option maxHeartbeats 400000 in
/-- What point t writes back is block t of the specification of the three arrays as the region finds them. -/
theorem flushed2_eq (c : Dev nD) (t : Fin cfg2.N) :
    (dat2 V c).flushed 3 t = ((cfg2.win 3).blk t).view.read (Elt Ideal) (projK (V c main_v8) (V c main_v5) (V c main_v11)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  funext j
  obtain ⟨p, q, rfl⟩ : ∃ (p : Fin 1024) (q : Fin 1024), j = ix2 p q := ⟨j 0, j 1, eq_ix2 j⟩
  refine (projPay2_at (iblk2 V c 0 t) (iblk2 V c 1 t) (iblk2 V c 2 t) p q).trans ?_
  have ht : t.val < 8 := lt_of_lt_of_eq t.isLt N_2
  have hp : p.val < 1024 := p.isLt
  have hrow : t.val * 1024 + p.val < 8192 := by omega
  refine Eq.trans ?_ (congrArg (projK (V c main_v8) (V c main_v5) (V c main_v11)) (emb2_3 t p q hrow).symm)
  exact projK_of_blocks (V c main_v8) (V c main_v5) (V c main_v11) (iblk2 V c 0 t) (iblk2 V c 1 t) (iblk2 V c 2 t) ⟨_, hrow⟩ p q
    (fun d => congrArg (V c main_v8) (emb2_0 t p d hrow)) (fun d => congrArg (V c main_v5) (emb2_1 t d q))
    (congrArg (V c main_v11) (emb2_2 t q))

/-- An index of the output array is in point t's tile iff each coordinate is in the tile's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v16).slice (win2_3.rect t)).set ↔ _
  rw [View.set_slice_whole, Rect.mem_set_unit]
  exact Iff.rfl

/-- The 8 output tiles cover the array: row r is in the tile of point r / 1024, and every point writes its tile back. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : (i 0).val / 1024 < cfg2.N := lt_of_lt_of_eq (by omega : (i 0).val / 1024 < 8) N_2.symm
  refine ⟨⟨(i 0).val / 1024, hN⟩, flush2_3 _, ?_⟩
  obtain ⟨-, -, -, -, -, -, e30, e31⟩ := idx_facts2 ⟨(i 0).val / 1024, hN⟩
  have e30' : win2_3.index ⟨(i 0).val / 1024, hN⟩ (0 : Fin 2) = (i 0).val / 1024 := e30
  rw [mem_blk2]
  intro a
  match a with
  | ⟨0, _⟩ => show win2_3.index ⟨(i 0).val / 1024, hN⟩ (0 : Fin 2) * 1024 ≤ (i 0).val ∧ (i 0).val < win2_3.index ⟨(i 0).val / 1024, hN⟩ (0 : Fin 2) * 1024 + 1024; omega
  | ⟨1, _⟩ => show win2_3.index ⟨(i 0).val / 1024, hN⟩ (1 : Fin 2) * 1024 ≤ (i 1).val ∧ (i 1).val < win2_3.index ⟨(i 0).val / 1024, hN⟩ (1 : Fin 2) * 1024 + 1024; omega

/-- The output array of the third projection after its region: the specification of the three arrays as the
    region finds them. -/
theorem proj2_final (c : Dev nD) : (dat2 V c).arrAt 3 cfg2.N = projK (V c main_v8) (V c main_v5) (V c main_v11) :=
  (dat2 V c).arrAt_eq_of_cover 3 _ (fun t _ => flushed2_eq V c t) cover2

end Value

end Cert.KernelIdeal.Hand

end
-- ==== Proof.AttnPayload.lean ====
/-
  The three values the attention kernel stores, each read at one element, over the extended reals (a float is an
  extended real and a change of float format is the identity).

  * the value stored at the first key tile of a query tile is the zero word everywhere;
  * the value stored at every key tile is the accumulator's element plus, over the 512 key rows r of the tile,
    (max (Σ_{d<1024} q(0,p,d) · k(0,r,d)) 0 · 2⁻⁵ + mask(0,p,r)) · v(0,r,e): the query block times the transposed
    key block, rectified, scaled, the mask block added, times the value block;
  * the value stored into the output block at the last key tile is the accumulator's element rectified.

  A matrix product into a zero accumulator is the sum over its one contracted axis of the operands' products; the
  contracted index is identified with its one coordinate, and the leading unit axis of a block and the transposition of
  the key block are read through at coordinates.
-/
import proofs.«147016_j57062935495338_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic ValueIdx

/-- The zero splat the kernel stores at the first key tile: the zero word at every element. -/
theorem pay1_at (p e : Fin 1024) : k3_pay1 (F := Ideal) (ix2 p e) = Ideal.ofBits .f32 0x00000000#32 := by
  unfold k3_pay1
  rw [shapeCast_self]
  rfl

set_option maxHeartbeats 400000 in
/-- The query block times the transposed key block, at query row p and key row r: the sum over the 1024 features. -/
theorem qk_at (x0 : Vec Ideal S1x1024x1024 .bf16) (x1 : Vec Ideal S1x512x1024 .bf16) (p : Fin 1024) (r : Fin 512) :
    matmul dot_S1024x1024_S1024x512_S1024x512_1_0_0_1_n_n none
        (shapeCast S1024x1024 x0 shapeCasts_S1x1024x1024_S1024x1024 : FVec Ideal S1024x1024 .bf16)
        (transpose S1024x512 [1, 0] (shapeCast S512x1024 x1 shapeCasts_S1x512x1024_S512x1024 : FVec Ideal S512x1024 .bf16)
          transposes_S512x1024_p1_0_S1024x512 : FVec Ideal S1024x512 .bf16)
        (constant (F := Ideal) S1024x512 .f32 0x00000000#32) (ix2 p r)
      = ∑ d : Fin 1024, x0 (ix3 (0 : Fin 1) p d) * x1 (ix3 (0 : Fin 1) r d) := by
  simp only [matmul]
  rw [Ideal.matmul_constant_zero_apply,
    ← Equiv.sum_comp (contrEquiv1 dot_S1024x1024_S1024x512_S1024x512_1_0_0_1_n_n 1024 rfl rfl).symm]
  refine Finset.sum_congr rfl fun d _ => ?_
  have hd := contrEquiv1_symm_val dot_S1024x1024_S1024x512_S1024x512_1_0_0_1_n_n 1024 rfl rfl d
  have el : dot_S1024x1024_S1024x512_S1024x512_1_0_0_1_n_n.lhsIdx (ix2 p r)
      ((contrEquiv1 dot_S1024x1024_S1024x512_S1024x512_1_0_0_1_n_n 1024 rfl rfl).symm d) = ix2 p d :=
    funext fun a => Fin.ext (by
      match a with
      | ⟨0, _⟩ => rfl
      | ⟨1, _⟩ => exact (dot_S1024x1024_S1024x512_S1024x512_1_0_0_1_n_n.lhsIdx_val_of_single rfl _ _).trans hd)
  have er : dot_S1024x1024_S1024x512_S1024x512_1_0_0_1_n_n.rhsIdx (ix2 p r)
      ((contrEquiv1 dot_S1024x1024_S1024x512_S1024x512_1_0_0_1_n_n 1024 rfl rfl).symm d) = ix2 d r :=
    funext fun a => Fin.ext (by
      match a with
      | ⟨0, _⟩ => exact (dot_S1024x1024_S1024x512_S1024x512_1_0_0_1_n_n.rhsIdx_val_of_single rfl _ _).trans hd
      | ⟨1, _⟩ => rfl)
  rw [el, er, shapeCast_1ab_ab_apply, transpose_ix2_apply, shapeCast_1ab_ab_apply]

set_option maxHeartbeats 400000 in
/-- A [1024, 512] matrix of weights times the value block, at query row p and feature e: the sum over the 512 key rows. -/
theorem wv_at (w : FVec Ideal S1024x512 .bf16) (x2 : Vec Ideal S1x512x1024 .bf16) (p e : Fin 1024) :
    matmul dot_S1024x512_S512x1024_S1024x1024_1_0_0_1_n_n none w
        (shapeCast S512x1024 x2 shapeCasts_S1x512x1024_S512x1024 : FVec Ideal S512x1024 .bf16)
        (constant (F := Ideal) S1024x1024 .f32 0x00000000#32) (ix2 p e)
      = ∑ r : Fin 512, w (ix2 p r) * x2 (ix3 (0 : Fin 1) r e) := by
  simp only [matmul]
  rw [Ideal.matmul_constant_zero_apply,
    ← Equiv.sum_comp (contrEquiv1 dot_S1024x512_S512x1024_S1024x1024_1_0_0_1_n_n 512 rfl rfl).symm]
  refine Finset.sum_congr rfl fun r _ => ?_
  have hr := contrEquiv1_symm_val dot_S1024x512_S512x1024_S1024x1024_1_0_0_1_n_n 512 rfl rfl r
  have el : dot_S1024x512_S512x1024_S1024x1024_1_0_0_1_n_n.lhsIdx (ix2 p e)
      ((contrEquiv1 dot_S1024x512_S512x1024_S1024x1024_1_0_0_1_n_n 512 rfl rfl).symm r) = ix2 p r :=
    funext fun a => Fin.ext (by
      match a with
      | ⟨0, _⟩ => rfl
      | ⟨1, _⟩ => exact (dot_S1024x512_S512x1024_S1024x1024_1_0_0_1_n_n.lhsIdx_val_of_single rfl _ _).trans hr)
  have er : dot_S1024x512_S512x1024_S1024x1024_1_0_0_1_n_n.rhsIdx (ix2 p e)
      ((contrEquiv1 dot_S1024x512_S512x1024_S1024x1024_1_0_0_1_n_n 512 rfl rfl).symm r) = ix2 r e :=
    funext fun a => Fin.ext (by
      match a with
      | ⟨0, _⟩ => exact (dot_S1024x512_S512x1024_S1024x1024_1_0_0_1_n_n.rhsIdx_val_of_single rfl _ _).trans hr
      | ⟨1, _⟩ => rfl)
  rw [el, er, shapeCast_1ab_ab_apply]

set_option maxHeartbeats 400000 in
/-- The value stored at every key tile, at row p and column e of the query tile: the accumulator's element plus the
    tile's 512 summands. -/
theorem pay2_at (x0 : Vec Ideal S1x1024x1024 .bf16) (x1 x2 : Vec Ideal S1x512x1024 .bf16) (x3 : Vec Ideal S1x1024x512 .bf16)
    (s : Vec Ideal S1024x1024 .f32) (p e : Fin 1024) :
    k3_pay2 x0 x1 x2 x3 s (ix2 p e)
      = s (ix2 p e) + ∑ r : Fin 512, (max (∑ d : Fin 1024, x0 (ix3 (0 : Fin 1) p d) * x1 (ix3 (0 : Fin 1) r d)) (Ideal.ofBits .f32 0x00000000#32)
          * Ideal.ofBits .f32 0x3D000000#32 + x3 (ix3 (0 : Fin 1) p r)) * x2 (ix3 (0 : Fin 1) r e) := by
  unfold k3_pay2
  rw [shapeCast_self, addf_apply, wv_at]
  refine congrArg (s (ix2 p e) + ·) (Finset.sum_congr rfl fun r _ => ?_)
  rw [truncf_apply, addf_apply, mulf_apply, maximumf_apply, qk_at, extf_apply, shapeCast_1ab_ab_apply]
  rfl

/-- The value stored into the output block at the last key tile: the accumulator's element rectified. -/
theorem pay3_at (s : Vec Ideal S1024x1024 .f32) (p e : Fin 1024) :
    k3_pay3 s (ix3 (0 : Fin 1) p e) = max (s (ix2 p e)) (Ideal.ofBits .f32 0x00000000#32) := by
  unfold k3_pay3
  rw [shapeCast_ab_1ab_apply]
  rfl

end Cert.KernelIdeal.Hand

end
-- ==== Proof.AttnAcc.lean ====
/- The accumulator at a flushing point as a sum, over the extended reals. At row p and column e every key tile adds its
   own term to the accumulator's element — the sum over the tile's 512 key rows of (the rectified, scaled query–key
   product plus the mask) times the value — and the first key tile of a query tile starts from the zero word; so at the
   last key tile (t % 4 = 3) the accumulator's element is the zero word plus the four tiles' terms, the tiles being the
   points 4·(t / 4) … 4·(t / 4) + 3. The recursion is elementwise, so it is folded at a fixed (p, e). -/
import proofs.«147016_j57062935495338_2_alg».proof.Proof.AttnRegion
import proofs.«147016_j57062935495338_2_alg».proof.Proof.AttnPayload
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open scoped BigOperators
open Idealize.ShloMosaic.ValueIdx

variable (V : (c : Dev nD) → (b : Ref sig .tc) → Buf (Elt Ideal) ((c : Thread nD τ).loc b))

/-- One key tile's addend to the accumulator at row `p` and column `e`, from the tile's four input blocks. -/
def tileTermX (x0 : Vec Ideal S1x1024x1024 .bf16) (x1 x2 : Vec Ideal S1x512x1024 .bf16) (x3 : Vec Ideal S1x1024x512 .bf16)
    (p e : Fin 1024) : EReal :=
  ∑ r : Fin 512, (max (∑ d : Fin 1024, x0 (ix3 (0 : Fin 1) p d) * x1 (ix3 (0 : Fin 1) r d)) (Ideal.ofBits .f32 0x00000000#32)
      * Ideal.ofBits .f32 0x3D000000#32 + x3 (ix3 (0 : Fin 1) p r)) * x2 (ix3 (0 : Fin 1) r e)

/-- The value stored at every key tile, at one element: the accumulator's element plus the tile's addend. -/
theorem pay2_at_term (x0 : Vec Ideal S1x1024x1024 .bf16) (x1 x2 : Vec Ideal S1x512x1024 .bf16) (x3 : Vec Ideal S1x1024x512 .bf16)
    (s : Vec Ideal S1024x1024 .f32) (p e : Fin 1024) :
    k3_pay2 x0 x1 x2 x3 s (ix2 p e) = s (ix2 p e) + tileTermX x0 x1 x2 x3 p e := pay2_at x0 x1 x2 x3 s p e

/-- Point `n`'s addend at row `p` and column `e`: the term of the blocks the region finds at `n`; total in `n` (zero past
    the grid, where nothing reads it). -/
def tileTerm (c : Dev nD) (n : ℕ) (p e : Fin 1024) : EReal :=
  if hn : n < cfg3.N then
    tileTermX (iblk3 V c 0 ⟨n, hn⟩) (iblk3 V c 1 ⟨n, hn⟩) (iblk3 V c 2 ⟨n, hn⟩) (iblk3 V c 3 ⟨n, hn⟩) p e
  else 0

theorem tileTerm_of_lt (c : Dev nD) (n : ℕ) (hn : n < cfg3.N) (p e : Fin 1024) :
    tileTerm V c n p e = tileTermX (iblk3 V c 0 ⟨n, hn⟩) (iblk3 V c 1 ⟨n, hn⟩) (iblk3 V c 2 ⟨n, hn⟩) (iblk3 V c 3 ⟨n, hn⟩) p e :=
  dif_pos hn

/-- The addend spelled out, over variables of the literal block types (instantiate it at the blocks a point finds). -/
theorem tileTermX_eq (x0 : Vec Ideal S1x1024x1024 .bf16) (x1 x2 : Vec Ideal S1x512x1024 .bf16) (x3 : Vec Ideal S1x1024x512 .bf16)
    (p e : Fin 1024) :
    tileTermX x0 x1 x2 x3 p e
      = ∑ r : Fin 512, (max (∑ d : Fin 1024, x0 (ix3 (0 : Fin 1) p d) * x1 (ix3 (0 : Fin 1) r d)) (Ideal.ofBits .f32 0x00000000#32)
          * Ideal.ofBits .f32 0x3D000000#32 + x3 (ix3 (0 : Fin 1) p r)) * x2 (ix3 (0 : Fin 1) r e) := rfl

set_option maxHeartbeats 400000 in
/-- THE FOLD. At the last key tile of a query tile the accumulator's element is the zero word plus the terms of the four
    key tiles of the run. -/
theorem acc3_fold (c : Dev nD) (t : Fin cfg3.N) (h : t.val % 4 = 3) (p e : Fin 1024) :
    acc3 V c t.val t.isLt (ix2 p e)
      = Ideal.ofBits .f32 0x00000000#32 + ∑ s ∈ Finset.range 4, tileTerm V c (4 * (t.val / 4) + s) p e := by
  have hb : 4 * (t.val / 4) + t.val % 4 < cfg3.N := by rw [Nat.div_add_mod]; exact t.isLt
  have hfold := Pipeline.eq_accAt_of_mod (N := cfg3.N) (α := Unit → EReal)
    (fun n hn _ => acc3 V c n hn (ix2 p e)) 4
    (fun n _ _ => Ideal.ofBits .f32 0x00000000#32 + tileTerm V c n p e)
    (fun n _ acc u => acc u + tileTerm V c n p e)
    (fun n hn h0 => funext fun _ => by
      show acc3 V c n hn (ix2 p e) = Ideal.ofBits .f32 0x00000000#32 + tileTerm V c n p e
      rw [acc3_zero V c n hn h0, pay2_at_term, pay1_at, tileTerm_of_lt V c n hn])
    (fun n hn hne => funext fun _ => by
      show acc3 V c (n + 1) hn (ix2 p e) = acc3 V c n (Nat.lt_of_succ_lt hn) (ix2 p e) + tileTerm V c (n + 1) p e
      rw [acc3_succ V c (n + 1) hn hne, pay2_at_term, tileTerm_of_lt V c (n + 1) hn]; rfl)
    (by decide) t.val t.isLt hb
  have hsum := Pipeline.accAt_add_apply (N := cfg3.N) (ι := Unit) (β := EReal)
    (fun n _ _ => Ideal.ofBits .f32 0x00000000#32 + tileTerm V c n p e)
    (fun n _ acc u => acc u + tileTerm V c n p e)
    (fun _ => Ideal.ofBits .f32 0x00000000#32) (fun n _ => tileTerm V c n p e) (4 * (t.val / 4)) 3
    (fun _ _ => rfl) (fun _ _ _ _ _ _ => rfl) (t.val % 4) (by omega) hb ()
  have key := (congrFun hfold ()).trans hsum
  rw [h] at key
  exact key

/-- info: 'Cert.KernelIdeal.Hand.acc3_fold' depends on axioms: [propext, Classical.choice, Quot.sound] -/
#guard_msgs in #print axioms acc3_fold

end Cert.KernelIdeal.Hand

end
-- ==== Proof.AttnValue.lean ====
/-
  The attention region's result array as one function of the four arrays the region reads, over the extended reals.

  The grid has 32 points t = 8·b + 4·i + j: batch b < 4, query tile i < 2 (1024 rows each), key tile j < 4 (512 rows
  each). The query and output windows show block (b, i, 0) of their arrays, the key and value windows block (b, j, 0),
  the mask window block (0, i, j); an element of a block sits in its array, on each axis, at the block index times the
  block's size plus the coordinate inside the block. The output block is written back at the points with j = 3 only.
  There the accumulator holds the zero word plus the four key tiles' terms of the query tile, added in order, and the
  block written back is the accumulator rectified; read through the windows' rectangles, key tile s of the point's run
  contributes the 512 keys 512·s … 512·s + 511 of the batch. Row p of batch b is covered by the block written back at
  point 8·b + 4·(p / 1024) + 3, so the blocks written back cover the array and the array ends at the tiled attention of
  the four arrays.
-/
import proofs.«147016_j57062935495338_2_alg».proof.Proof.AttnRegion
import proofs.«147016_j57062935495338_2_alg».proof.Proof.AttnAcc
import proofs.«147016_j57062935495338_2_alg».proof.Proof.AttnPayload
import proofs.«147016_j57062935495338_2_alg».proof.Proof.KernelShape
import Idealize.ShloMosaic.Lib.Pipeline.Value

noncomputable section

open scoped BigOperators

namespace Cert.KernelIdeal.Hand

open Cert.KernelIdeal Cert.KernelIdeal.Gen Cert.AttnSpec
open Idealize.ShloMosaic Idealize.ShloMosaic.TcCoe Idealize.SL.Sem ValueIdx
open Idealize.ShloMosaic.Pipeline (Dat)

/-! ## The windows' block indices -/

/-- The block indices of the five windows at grid point t = 8·b + 4·i + j (b < 4 the batch, i < 2 the query tile, j < 4 the
    key tile), decided over the 32 points: the query and output windows sit at (b, i, 0), the key and value windows at
    (b, j, 0), the mask window at (0, i, j). -/
theorem idx3 : ∀ t : Fin cfg3.N,
    win3_0.index t (0 : Fin 3) = t.val / 8 ∧ win3_0.index t (1 : Fin 3) = t.val / 4 % 2 ∧ win3_0.index t (2 : Fin 3) = 0
    ∧ win3_1.index t (0 : Fin 3) = t.val / 8 ∧ win3_1.index t (1 : Fin 3) = t.val % 4 ∧ win3_1.index t (2 : Fin 3) = 0
    ∧ win3_2.index t (0 : Fin 3) = t.val / 8 ∧ win3_2.index t (1 : Fin 3) = t.val % 4 ∧ win3_2.index t (2 : Fin 3) = 0
    ∧ win3_3.index t (0 : Fin 3) = 0 ∧ win3_3.index t (1 : Fin 3) = t.val / 4 % 2 ∧ win3_3.index t (2 : Fin 3) = t.val % 4
    ∧ win3_4.index t (0 : Fin 3) = t.val / 8 ∧ win3_4.index t (1 : Fin 3) = t.val / 4 % 2 ∧ win3_4.index t (2 : Fin 3) = 0 :=
  (by decide +kernel : ∀ t : Fin grid3.N, _)

/-! ## A block's element in its array

An element of a window's block at point t sits in the window's array, on each axis, at the block index times the block's
size plus the coordinate inside the block. -/

section Blocks

variable {F : FTy → Type} [FloatOps F] (c : Dev nD)

/-- The query block at point t, at (0, p, d): the query array at (t / 8, 1024 · (t / 4 % 2) + p, d). -/
theorem blk3_0_at (A : Buf (Elt F) ((c : Thread nD τ).loc main_v13)) (t : Fin cfg3.N) (p d : Fin 1024)
    (b : Fin 4) (P : Fin 2048) (hb : t.val / 8 = b.val) (hP : 1024 * (t.val / 4 % 2) + p.val = P.val) :
    ((cfg3.win 0).blk t).view.read (Elt F) A (ix3 (0 : Fin 1) p d) = A (ix3 b P d) := by
  obtain ⟨e0, e1, e2, -⟩ := idx3 t
  rw [View.read_apply]
  show A _ = A _
  refine congrArg A (funext fun a => Fin.ext ?_)
  match a with
  | ⟨0, _⟩ => show win3_0.index t (0 : Fin 3) * 1 + 1 * 0 = b.val; rw [e0]; omega
  | ⟨1, _⟩ => show win3_0.index t (1 : Fin 3) * 1024 + 1 * p.val = P.val; rw [e1]; omega
  | ⟨2, _⟩ => show win3_0.index t (2 : Fin 3) * 1024 + 1 * d.val = d.val; rw [e2]; omega

/-- The key block at point t, at (0, r, d): the key array at (t / 8, 512 · (t % 4) + r, d). -/
theorem blk3_1_at (A : Buf (Elt F) ((c : Thread nD τ).loc main_v15)) (t : Fin cfg3.N) (r : Fin 512) (d : Fin 1024)
    (b : Fin 4) (R : Fin 2048) (hb : t.val / 8 = b.val) (hR : 512 * (t.val % 4) + r.val = R.val) :
    ((cfg3.win 1).blk t).view.read (Elt F) A (ix3 (0 : Fin 1) r d) = A (ix3 b R d) := by
  obtain ⟨-, -, -, e0, e1, e2, -⟩ := idx3 t
  rw [View.read_apply]
  show A _ = A _
  refine congrArg A (funext fun a => Fin.ext ?_)
  match a with
  | ⟨0, _⟩ => show win3_1.index t (0 : Fin 3) * 1 + 1 * 0 = b.val; rw [e0]; omega
  | ⟨1, _⟩ => show win3_1.index t (1 : Fin 3) * 512 + 1 * r.val = R.val; rw [e1]; omega
  | ⟨2, _⟩ => show win3_1.index t (2 : Fin 3) * 1024 + 1 * d.val = d.val; rw [e2]; omega

/-- The value block at point t, at (0, r, e): the value array at (t / 8, 512 · (t % 4) + r, e). -/
theorem blk3_2_at (A : Buf (Elt F) ((c : Thread nD τ).loc main_v17)) (t : Fin cfg3.N) (r : Fin 512) (e : Fin 1024)
    (b : Fin 4) (R : Fin 2048) (hb : t.val / 8 = b.val) (hR : 512 * (t.val % 4) + r.val = R.val) :
    ((cfg3.win 2).blk t).view.read (Elt F) A (ix3 (0 : Fin 1) r e) = A (ix3 b R e) := by
  obtain ⟨-, -, -, -, -, -, e0, e1, e2, -⟩ := idx3 t
  rw [View.read_apply]
  show A _ = A _
  refine congrArg A (funext fun a => Fin.ext ?_)
  match a with
  | ⟨0, _⟩ => show win3_2.index t (0 : Fin 3) * 1 + 1 * 0 = b.val; rw [e0]; omega
  | ⟨1, _⟩ => show win3_2.index t (1 : Fin 3) * 512 + 1 * r.val = R.val; rw [e1]; omega
  | ⟨2, _⟩ => show win3_2.index t (2 : Fin 3) * 1024 + 1 * e.val = e.val; rw [e2]; omega

/-- The mask block at point t, at (0, p, r): the mask array at (0, 1024 · (t / 4 % 2) + p, 512 · (t % 4) + r). -/
theorem blk3_3_at (A : Buf (Elt F) ((c : Thread nD τ).loc main_v18)) (t : Fin cfg3.N) (p : Fin 1024) (r : Fin 512)
    (P R : Fin 2048) (hP : 1024 * (t.val / 4 % 2) + p.val = P.val) (hR : 512 * (t.val % 4) + r.val = R.val) :
    ((cfg3.win 3).blk t).view.read (Elt F) A (ix3 (0 : Fin 1) p r) = A (ix3 (0 : Fin 1) P R) := by
  obtain ⟨-, -, -, -, -, -, -, -, -, e0, e1, e2, -⟩ := idx3 t
  rw [View.read_apply]
  show A _ = A _
  refine congrArg A (funext fun a => Fin.ext ?_)
  match a with
  | ⟨0, _⟩ => show win3_3.index t (0 : Fin 3) * 1 + 1 * 0 = 0; rw [e0]
  | ⟨1, _⟩ => show win3_3.index t (1 : Fin 3) * 1024 + 1 * p.val = P.val; rw [e1]; omega
  | ⟨2, _⟩ => show win3_3.index t (2 : Fin 3) * 512 + 1 * r.val = R.val; rw [e2]; omega

end Blocks

/-! ## One key tile's term, at the arrays -/

section Tile

variable (V : (c : Dev nD) → (b : Ref sig .tc) → Buf (Elt Ideal) ((c : Thread nD τ).loc b))

set_option maxHeartbeats 400000 in
/-- The term point t adds to the accumulator at (p, e), written over the four input windows' blocks at t, is the sum
    over the 512 keys 512·s + r of key tile s = t % 4 of the batch b = t / 8, at query row P = 1024 · (t / 4 % 2) + p, of
    the four arrays' elements. The blocks and the arrays enter as variables of the literal types, tied to the windows'
    blocks and to the region's arrays by equations. -/
theorem tile_eq (c : Dev nD) (t : Fin cfg3.N) (p e : Fin 1024) (b : Fin 4) (P : Fin 2048) (s : ℕ)
    (hb : t.val / 8 = b.val) (hP : 1024 * (t.val / 4 % 2) + p.val = P.val) (hs : t.val % 4 = s)
    (x0 : Vec Ideal S1x1024x1024 .bf16) (x1 x2 : Vec Ideal S1x512x1024 .bf16) (x3 : Vec Ideal S1x1024x512 .bf16)
    (h0 : x0 = iblk3 V c 0 t) (h1 : x1 = iblk3 V c 1 t) (h2 : x2 = iblk3 V c 2 t) (h3 : x3 = iblk3 V c 3 t)
    (Q K Vv : (⟨3, ![4, 2048, 1024]⟩ : Shape).Idx → EReal) (M : (⟨3, ![1, 2048, 2048]⟩ : Shape).Idx → EReal)
    (hQ : Q = V c main_v13) (hK : K = V c main_v15) (hV : Vv = V c main_v17) (hM : M = V c main_v18) :
    (∑ r : Fin 512, (max (∑ d : Fin 1024, x0 (ix3 (0 : Fin 1) p d) * x1 (ix3 (0 : Fin 1) r d)) zeroW * scaleW
        + x3 (ix3 (0 : Fin 1) p r)) * x2 (ix3 (0 : Fin 1) r e))
      = ∑ r : Fin 512, if h : 512 * s + r.val < 2048 then
          (max (∑ d : Fin 1024, Q (ix3 b P d) * K (ix3 b (⟨512 * s + r.val, h⟩ : Fin 2048) d)) zeroW * scaleW
            + M (ix3 (0 : Fin 1) P (⟨512 * s + r.val, h⟩ : Fin 2048))) * Vv (ix3 b (⟨512 * s + r.val, h⟩ : Fin 2048) e)
        else 0 := by
  refine Finset.sum_congr rfl fun r _ => ?_
  have hlt : 512 * s + r.val < 2048 := by have := r.isLt; omega
  have hR : 512 * (t.val % 4) + r.val = (⟨512 * s + r.val, hlt⟩ : Fin 2048).val := by rw [hs]
  have e0 : ∀ d : Fin 1024, x0 (ix3 (0 : Fin 1) p d) = Q (ix3 b P d) := fun d => by
    rw [h0, hQ]; exact blk3_0_at c (V c main_v13) t p d b P hb hP
  have e1 : ∀ d : Fin 1024, x1 (ix3 (0 : Fin 1) r d) = K (ix3 b (⟨512 * s + r.val, hlt⟩ : Fin 2048) d) := fun d => by
    rw [h1, hK]; exact blk3_1_at c (V c main_v15) t r d b _ hb hR
  have e2 : x2 (ix3 (0 : Fin 1) r e) = Vv (ix3 b (⟨512 * s + r.val, hlt⟩ : Fin 2048) e) := by
    rw [h2, hV]; exact blk3_2_at c (V c main_v17) t r e b _ hb hR
  have e3 : x3 (ix3 (0 : Fin 1) p r) = M (ix3 (0 : Fin 1) P (⟨512 * s + r.val, hlt⟩ : Fin 2048)) := by
    rw [h3, hM]; exact blk3_3_at c (V c main_v18) t p r P _ hP hR
  rw [dif_pos hlt, e2, e3, Finset.sum_congr rfl fun d _ => (by rw [e0 d, e1 d] :
    x0 (ix3 (0 : Fin 1) p d) * x1 (ix3 (0 : Fin 1) r d) = Q (ix3 b P d) * K (ix3 b (⟨512 * s + r.val, hlt⟩ : Fin 2048) d))]

end Tile

/-! ## What a flushing point writes back, the cover, and the array -/

section Final

variable (V : (c : Dev nD) → (b : Ref sig .tc) → Buf (Elt Ideal) ((c : Thread nD τ).loc b))

set_option maxHeartbeats 800000 in
/-- WHAT POINT t WRITES BACK (t % 4 = 3) is block t of the tiled attention of the four arrays: the accumulator there is
    the zero word plus the four key tiles' terms of the run 4·(t / 4) … 4·(t / 4) + 3, each read at the arrays, and the
    block is the accumulator rectified. -/
theorem flushed3_4_eq (c : Dev nD) (t : Fin cfg3.N) (hf : (cfg3.win 4).flush t = true) :
    (dat3 V c).flushed 4 t
      = ((cfg3.win 4).blk t).view.read (Elt Ideal) (attnK (V c main_v13) (V c main_v15) (V c main_v17) (V c main_v18)) := by
  have h3 : t.val % 4 = 3 := (flush3_4 t).mp hf
  have hN : cfg3.N = 32 := N_3
  have htlt : t.val < cfg3.N := t.isLt
  show (cfg3.win 4).cut (grid3.coords t) ((dat3 V c).after 4 t) = _
  rw [after3_4, out3_4_C V c t h3]
  funext y
  obtain ⟨u, p, e, rfl⟩ : ∃ (u : Fin 1) (p e : Fin 1024), y = ix3 u p e :=
    ⟨y 0, y 1, y 2, eq_ix3 (n0 := 1) (n1 := 1024) (n2 := 1024) y⟩
  obtain rfl : u = 0 := Subsingleton.elim _ _
  have hb : t.val / 8 < 4 := by omega
  have hPlt : 1024 * (t.val / 4 % 2) + p.val < 2048 := by have := p.isLt; omega
  have hemb : ((cfg3.win 4).blk t).view.emb (ix3 (0 : Fin 1) p e)
      = ix3 (⟨t.val / 8, hb⟩ : Fin 4) (⟨1024 * (t.val / 4 % 2) + p.val, hPlt⟩ : Fin 2048) e := by
    obtain ⟨-, -, -, -, -, -, -, -, -, -, -, -, e0, e1, e2⟩ := idx3 t
    refine funext fun a => Fin.ext ?_
    match a with
    | ⟨0, _⟩ => show win3_4.index t (0 : Fin 3) * 1 + 1 * 0 = t.val / 8; rw [e0]; omega
    | ⟨1, _⟩ => show win3_4.index t (1 : Fin 3) * 1024 + 1 * p.val = 1024 * (t.val / 4 % 2) + p.val; rw [e1]; omega
    | ⟨2, _⟩ => show win3_4.index t (2 : Fin 3) * 1024 + 1 * e.val = e.val; rw [e2]; omega
  rw [View.read_apply]
  show k3_pay3 (acc3 V c t.val t.isLt) (ix3 (0 : Fin 1) p e)
    = attnK (V c main_v13) (V c main_v15) (V c main_v17) (V c main_v18) (((cfg3.win 4).blk t).view.emb (ix3 (0 : Fin 1) p e))
  rw [hemb, attnK_apply, pay3_at, acc3_fold V c t h3 p e]
  refine congrArg (fun x => max (zeroW + x) zeroW) (Finset.sum_congr rfl fun s hs => ?_)
  have hs4 : s < 4 := Finset.mem_range.mp hs
  have hn : 4 * (t.val / 4) + s < cfg3.N := by omega
  rw [tileTerm_of_lt V c _ hn, tileTermX_eq]
  exact tile_eq V c ⟨4 * (t.val / 4) + s, hn⟩ p e ⟨t.val / 8, hb⟩ ⟨1024 * (t.val / 4 % 2) + p.val, hPlt⟩ s
    (by show (4 * (t.val / 4) + s) / 8 = t.val / 8; omega)
    (by show 1024 * ((4 * (t.val / 4) + s) / 4 % 2) + p.val = 1024 * (t.val / 4 % 2) + p.val; omega)
    (by show (4 * (t.val / 4) + s) % 4 = s; omega)
    _ _ _ _ rfl rfl rfl rfl _ _ _ _ rfl rfl rfl rfl

/-- THE COVER: row P of batch b lies in the block written back at point 8·b + 4·(P / 1024) + 3. -/
theorem cover3_4 (i : S4x2048x1024.Idx) :
    ∃ t : Fin cfg3.N, (cfg3.win 4).flush t = true ∧ i ∈ ((cfg3.win 4).blk t).view.set := by
  have hN : cfg3.N = 32 := N_3
  have h0 : (i 0).val < 4 := (i 0).isLt
  have h1 : (i 1).val < 2048 := (i 1).isLt
  have h2 : (i 2).val < 1024 := (i 2).isLt
  obtain ⟨t, ht⟩ : ∃ t : Fin cfg3.N, t.val = 8 * (i 0).val + 4 * ((i 1).val / 1024) + 3 := ⟨⟨_, by omega⟩, rfl⟩
  refine ⟨t, (flush3_4 t).mpr (by omega), ?_⟩
  show i ∈ ((View.whole main_v19).slice (win3_4.rect t)).set
  rw [View.set_slice_whole, Rect.mem_set_unit]
  obtain ⟨-, -, -, -, -, -, -, -, -, -, -, -, e0, e1, e2⟩ := idx3 t
  intro a
  match a with
  | ⟨0, _⟩ =>
    show win3_4.index t (0 : Fin 3) * 1 ≤ (i 0).val ∧ (i 0).val < win3_4.index t (0 : Fin 3) * 1 + 1
    rw [e0]; omega
  | ⟨1, _⟩ =>
    show win3_4.index t (1 : Fin 3) * 1024 ≤ (i 1).val ∧ (i 1).val < win3_4.index t (1 : Fin 3) * 1024 + 1024
    rw [e1]; omega
  | ⟨2, _⟩ =>
    show win3_4.index t (2 : Fin 3) * 1024 ≤ (i 2).val ∧ (i 2).val < win3_4.index t (2 : Fin 3) * 1024 + 1024
    rw [e2]; omega

/-- THE RESULT ARRAY after the region: the tiled attention of the four arrays the region reads. -/
theorem attn_final (c : Dev nD) :
    (dat3 V c).arrAt 4 cfg3.N = attnK (V c main_v13) (V c main_v15) (V c main_v17) (V c main_v18) :=
  (dat3 V c).arrAt_eq_of_cover 4 (attnK (V c main_v13) (V c main_v15) (V c main_v17) (V c main_v18))
    (fun t hf => flushed3_4_eq V c t hf) cover3_4

end Final

end Cert.KernelIdeal.Hand

end
-- ==== Proof.KernelShapeIsG.lean ====
/-
  The kernel's arrangement is the specification.

  With the flattened inputs `x(2048·b + s, d) = q(b, s, d)`, the weights `w(d, e) = W(0, 0, d, e)` and the biases
  `c(0, e) = bias(e)`, a flattened projection at row `2048·b + s` is the specification's projection at `(b, s)`. With the
  three projections so identified the tiled attention is the specification's result: a quotient by `√1024` is the
  product with `2⁻⁵`, a sum over 2048 keys is its four tiles of 512 added in turn onto zero, and the zero word is zero.
-/
import proofs.«147016_j57062935495338_2_alg».proof.Proof.KernelShape

noncomputable section

open scoped BigOperators

namespace Cert.AttnSpec

open Idealize.ShloMosaic Idealize.ShloMosaic.ValueIdx

set_option maxHeartbeats 400000 in
/-- A flattened projection at row `2048·b + s` is the specification's projection at `(b, s)`. -/
theorem projK_eq_proj (x3 : FVec Ideal ⟨3, ![4, 2048, 1024]⟩ .f32) (W4 : FVec Ideal ⟨4, ![1, 1, 1024, 1024]⟩ .f32) (c1 : FVec Ideal ⟨1, ![1024]⟩ .f32)
    (x : (⟨2, ![8192, 1024]⟩ : Shape).Idx → EReal) (w : (⟨2, ![1024, 1024]⟩ : Shape).Idx → EReal) (c : (⟨2, ![1, 1024]⟩ : Shape).Idx → EReal)
    (hx : ∀ (b : Fin 4) (s : Fin 2048) (d : Fin 1024), x (ix2 (⟨2048 * b.val + s.val, by omega⟩ : Fin 8192) d) = x3 (ix3 b s d))
    (hw : ∀ d e : Fin 1024, w (ix2 d e) = W4 (ix4 (0 : Fin 1) (0 : Fin 1) d e))
    (hc : ∀ e : Fin 1024, c (ix2 (0 : Fin 1) e) = c1 (ix1 e))
    (b : Fin 4) (s : Fin 2048) (e : Fin 1024) :
    projK x w c (ix2 (⟨2048 * b.val + s.val, by omega⟩ : Fin 8192) e) = proj x3 W4 c1 b s e := by
  rw [projK_apply]
  unfold proj
  simp only [hx, hw, hc]

set_option maxHeartbeats 400000 in
/-- THE KERNEL'S ARRANGEMENT IS `G`. -/
theorem kernel_shape_is_G (q k v : FVec Ideal ⟨3, ![4, 2048, 1024]⟩ .f32) (mask : FVec Ideal ⟨3, ![1, 2048, 2048]⟩ .f32) (Wq Wk Wv : FVec Ideal ⟨4, ![1, 1, 1024, 1024]⟩ .f32) (bq bk bv : FVec Ideal ⟨1, ![1024]⟩ .f32)
    (xq xk xv : (⟨2, ![8192, 1024]⟩ : Shape).Idx → EReal) (wq wk wv : (⟨2, ![1024, 1024]⟩ : Shape).Idx → EReal) (cq ck cv : (⟨2, ![1, 1024]⟩ : Shape).Idx → EReal)
    (Q3 K3 V3 : (⟨3, ![4, 2048, 1024]⟩ : Shape).Idx → EReal) (M : (⟨3, ![1, 2048, 2048]⟩ : Shape).Idx → EReal)
    (hxq : ∀ (b : Fin 4) (s : Fin 2048) (d : Fin 1024), xq (ix2 (⟨2048 * b.val + s.val, by omega⟩ : Fin 8192) d) = q (ix3 b s d))
    (hxk : ∀ (b : Fin 4) (s : Fin 2048) (d : Fin 1024), xk (ix2 (⟨2048 * b.val + s.val, by omega⟩ : Fin 8192) d) = k (ix3 b s d))
    (hxv : ∀ (b : Fin 4) (s : Fin 2048) (d : Fin 1024), xv (ix2 (⟨2048 * b.val + s.val, by omega⟩ : Fin 8192) d) = v (ix3 b s d))
    (hwq : ∀ d e : Fin 1024, wq (ix2 d e) = Wq (ix4 (0 : Fin 1) (0 : Fin 1) d e))
    (hwk : ∀ d e : Fin 1024, wk (ix2 d e) = Wk (ix4 (0 : Fin 1) (0 : Fin 1) d e))
    (hwv : ∀ d e : Fin 1024, wv (ix2 d e) = Wv (ix4 (0 : Fin 1) (0 : Fin 1) d e))
    (hcq : ∀ e : Fin 1024, cq (ix2 (0 : Fin 1) e) = bq (ix1 e))
    (hck : ∀ e : Fin 1024, ck (ix2 (0 : Fin 1) e) = bk (ix1 e))
    (hcv : ∀ e : Fin 1024, cv (ix2 (0 : Fin 1) e) = bv (ix1 e))
    (hQ3 : ∀ (b : Fin 4) (s : Fin 2048) (e : Fin 1024), Q3 (ix3 b s e) = projK xq wq cq (ix2 (⟨2048 * b.val + s.val, by omega⟩ : Fin 8192) e))
    (hK3 : ∀ (b : Fin 4) (s : Fin 2048) (e : Fin 1024), K3 (ix3 b s e) = projK xk wk ck (ix2 (⟨2048 * b.val + s.val, by omega⟩ : Fin 8192) e))
    (hV3 : ∀ (b : Fin 4) (s : Fin 2048) (e : Fin 1024), V3 (ix3 b s e) = projK xv wv cv (ix2 (⟨2048 * b.val + s.val, by omega⟩ : Fin 8192) e))
    (hM : ∀ (p r : Fin 2048), M (ix3 (0 : Fin 1) p r) = mask (ix3 (0 : Fin 1) p r)) :
    attnK Q3 K3 V3 M = G q k v mask Wq Wk Wv bq bk bv := by
  have hQ : ∀ (b : Fin 4) (s : Fin 2048) (e : Fin 1024), Q3 (ix3 b s e) = proj q Wq bq b s e := fun b s e =>
    (hQ3 b s e).trans (projK_eq_proj q Wq bq xq wq cq hxq hwq hcq b s e)
  have hK : ∀ (b : Fin 4) (s : Fin 2048) (e : Fin 1024), K3 (ix3 b s e) = proj k Wk bk b s e := fun b s e =>
    (hK3 b s e).trans (projK_eq_proj k Wk bk xk wk ck hxk hwk hck b s e)
  have hV : ∀ (b : Fin 4) (s : Fin 2048) (e : Fin 1024), V3 (ix3 b s e) = proj v Wv bv b s e := fun b s e =>
    (hV3 b s e).trans (projK_eq_proj v Wv bv xv wv cv hxv hwv hcv b s e)
  funext i
  obtain ⟨b, p, e, rfl⟩ : ∃ (b : Fin 4) (p : Fin 2048) (e : Fin 1024), i = ix3 b p e := ⟨i 0, i 1, i 2, eq_ix3 i⟩
  rw [attnK_apply, G_apply, attn_as_tiles]
  simp only [kerTerm, score, hQ, hK, hV, hM]
  rw [show (zeroW : EReal) = 0 from Ideal.ofBits_zero_f32]

end Cert.AttnSpec

end
-- ==== Proof.KernelValue.lean ====
/-
  From the regions' arrays to the argument arrays. Each projection region reads three arrays a host stretch laid out
  before it — the input flattened to rows, the weight matrix and the bias row — and the attention region reads the three
  projections reshaped back to batches beside the mask; between its writer and its reader no item touches any of them.
  This module reads each of those arrays at an index, down to the argument arrays as launched, and concludes: the result
  array ends at the specification's function of the ten arguments.
-/
import proofs.«147016_j57062935495338_2_alg».proof.Proof.Segments
import proofs.«147016_j57062935495338_2_alg».proof.Proof.ProjValue
import proofs.«147016_j57062935495338_2_alg».proof.Proof.AttnValue
import proofs.«147016_j57062935495338_2_alg».proof.Proof.KernelShapeIsG
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Cert.AttnSpec
open Idealize.ShloMosaic Idealize.ShloMosaic.TcCoe Idealize.ShloMosaic.StableHlo Idealize.ShloMosaic.ValueIdx
open Idealize.SL.Sem

section Glue

variable (m : (ℓ : Loc nD τ sig) → Buf (Elt Ideal) ℓ) (c : Dev nD)

/-! ## What the later items leave alone -/

theorem W3_keep (r : Ref sig .tc) (h1 : r ∉ hostOps1_W) (a0 : ∀ w, Pipeline.arrRef spec0 w ≠ r) :
    W3 m c (Proc.devRef .tc r) = W1 m c (Proc.devRef .tc r) :=
  (StableHlo.after_of_writes_sub hostOps1 _ hostOps1_writes h1).trans (W2_of_ne m c r a0)
theorem W5_keep (r : Ref sig .tc) (h2 : r ∉ hostOps2_W) (a1 : ∀ w, Pipeline.arrRef spec1 w ≠ r) :
    W5 m c (Proc.devRef .tc r) = W3 m c (Proc.devRef .tc r) :=
  (StableHlo.after_of_writes_sub hostOps2 _ hostOps2_writes h2).trans (W4_of_ne m c r a1)
theorem W7_keep (r : Ref sig .tc) (h3 : r ∉ hostOps3_W) (a2 : ∀ w, Pipeline.arrRef spec2 w ≠ r) :
    W7 m c (Proc.devRef .tc r) = W5 m c (Proc.devRef .tc r) :=
  (StableHlo.after_of_writes_sub hostOps3 _ hostOps3_writes h3).trans (W6_of_ne m c r a2)

/-! ## The layout operations at an index -/

/-- Flattening [4, 2048, 1024] to rows: row 2048·b + s is row s of batch b. -/
theorem rows_at (x : S4x2048x1024.Idx → EReal) (b : Fin 4) (s : Fin 2048) (d : Fin 1024) :
    shapeCast S8192x1024 x shapeCasts_S4x2048x1024_S8192x1024 (ix2 (⟨2048 * b.val + s.val, by omega⟩ : Fin 8192) d) = x (ix3 b s d) :=
  shapeCast_apply x shapeCasts_S4x2048x1024_S8192x1024 _ _
    (by rewrite [Shape.rowMajor_val_three, Shape.rowMajor_val_two]
        show (b.val * 2048 + s.val) * 1024 + d.val = (2048 * b.val + s.val) * 1024 + d.val; omega)
/-- And back: row s of batch b is row 2048·b + s. -/
theorem batches_at (x : S8192x1024.Idx → EReal) (b : Fin 4) (s : Fin 2048) (e : Fin 1024) :
    shapeCast S4x2048x1024 x shapeCasts_S8192x1024_S4x2048x1024 (ix3 b s e) = x (ix2 (⟨2048 * b.val + s.val, by omega⟩ : Fin 8192) e) :=
  shapeCast_apply x shapeCasts_S8192x1024_S4x2048x1024 _ _
    (by rewrite [Shape.rowMajor_val_three, Shape.rowMajor_val_two]
        show (2048 * b.val + s.val) * 1024 + e.val = (b.val * 2048 + s.val) * 1024 + e.val; omega)
/-- Dropping a weight's two unit axes. -/
theorem weight_at (x : S1x1x1024x1024.Idx → EReal) (d e : Fin 1024) :
    shapeCast S1024x1024 x shapeCasts_S1x1x1024x1024_S1024x1024 (ix2 d e) = x (ix4 (0 : Fin 1) (0 : Fin 1) d e) :=
  shapeCast_apply x shapeCasts_S1x1x1024x1024_S1024x1024 _ _
    (by rewrite [Shape.rowMajor_val_four, Shape.rowMajor_val_two]
        show ((0 * 1 + 0) * 1024 + d.val) * 1024 + e.val = d.val * 1024 + e.val; omega)
/-- A bias as a one-row matrix. -/
theorem bias_at (x : S1024.Idx → EReal) (e : Fin 1024) :
    shapeCast S1x1024 x shapeCasts_S1024_S1x1024 (ix2 (0 : Fin 1) e) = x (ix1 e) :=
  shapeCast_apply x shapeCasts_S1024_S1x1024 _ _
    (by rewrite [Shape.rowMajor_val_one, Shape.rowMajor_val_two]
        show e.val = 0 * 1024 + e.val; omega)

/-! ## The first host stretch: the nine arrays the projections read -/

theorem V1_v6 : (V1 m c main_v6 : S8192x1024.Idx → EReal) = shapeCast S8192x1024 (m ((c : Thread nD τ).loc main_arg0)) shapeCasts_S4x2048x1024_S8192x1024 := by
  show StableHlo.after hostOps0 (W0 m c) (Proc.devRef .tc main_v6) = _
  after_results; rfl
theorem V1_v7 : (V1 m c main_v7 : S8192x1024.Idx → EReal) = shapeCast S8192x1024 (m ((c : Thread nD τ).loc main_arg1)) shapeCasts_S4x2048x1024_S8192x1024 := by
  show StableHlo.after hostOps0 (W0 m c) (Proc.devRef .tc main_v7) = _
  after_results; rfl
theorem V1_v8 : (V1 m c main_v8 : S8192x1024.Idx → EReal) = shapeCast S8192x1024 (m ((c : Thread nD τ).loc main_arg2)) shapeCasts_S4x2048x1024_S8192x1024 := by
  show StableHlo.after hostOps0 (W0 m c) (Proc.devRef .tc main_v8) = _
  after_results; rfl
theorem V1_v3 : (V1 m c main_v3 : S1024x1024.Idx → EReal) = shapeCast S1024x1024 (m ((c : Thread nD τ).loc main_arg4)) shapeCasts_S1x1x1024x1024_S1024x1024 := by
  show StableHlo.after hostOps0 (W0 m c) (Proc.devRef .tc main_v3) = _
  after_results; rfl
theorem V1_v4 : (V1 m c main_v4 : S1024x1024.Idx → EReal) = shapeCast S1024x1024 (m ((c : Thread nD τ).loc main_arg5)) shapeCasts_S1x1x1024x1024_S1024x1024 := by
  show StableHlo.after hostOps0 (W0 m c) (Proc.devRef .tc main_v4) = _
  after_results; rfl
theorem V1_v5 : (V1 m c main_v5 : S1024x1024.Idx → EReal) = shapeCast S1024x1024 (m ((c : Thread nD τ).loc main_arg6)) shapeCasts_S1x1x1024x1024_S1024x1024 := by
  show StableHlo.after hostOps0 (W0 m c) (Proc.devRef .tc main_v5) = _
  after_results; rfl
theorem V1_v9 : (V1 m c main_v9 : S1x1024.Idx → EReal) = shapeCast S1x1024 (m ((c : Thread nD τ).loc main_arg7)) shapeCasts_S1024_S1x1024 := by
  show StableHlo.after hostOps0 (W0 m c) (Proc.devRef .tc main_v9) = _
  after_results; rfl
theorem V1_v10 : (V1 m c main_v10 : S1x1024.Idx → EReal) = shapeCast S1x1024 (m ((c : Thread nD τ).loc main_arg8)) shapeCasts_S1024_S1x1024 := by
  show StableHlo.after hostOps0 (W0 m c) (Proc.devRef .tc main_v10) = _
  after_results; rfl
theorem V1_v11 : (V1 m c main_v11 : S1x1024.Idx → EReal) = shapeCast S1x1024 (m ((c : Thread nD τ).loc main_arg9)) shapeCasts_S1024_S1x1024 := by
  show StableHlo.after hostOps0 (W0 m c) (Proc.devRef .tc main_v11) = _
  after_results; rfl

/-! ## The reshapes back, the mask, and the projections' arrays -/

theorem V7_v13 : (V7 m c main_v13 : S4x2048x1024.Idx → EReal)
    = shapeCast S4x2048x1024 (projK (V1 m c main_v6) (V1 m c main_v3) (V1 m c main_v9)) shapeCasts_S8192x1024_S4x2048x1024 := by
  have e : W7 m c (Proc.devRef .tc main_v13) = W3 m c (Proc.devRef .tc main_v13) :=
    (W7_keep m c main_v13 (by decide) (by decide)).trans (W5_keep m c main_v13 (by decide) (by decide))
  refine e.trans ?_
  have e2 : W3 m c (Proc.devRef .tc main_v13) = shapeCast S4x2048x1024 (W2 m c (Proc.devRef .tc main_v12)) shapeCasts_S8192x1024_S4x2048x1024 := by
    show StableHlo.after hostOps1 (W2 m c) (Proc.devRef .tc main_v13) = _
    after_results; rfl
  rw [e2, show W2 m c (Proc.devRef .tc main_v12) = _ from W2_arr m c 3, proj0_final (V1 m) c]
theorem V7_v15 : (V7 m c main_v15 : S4x2048x1024.Idx → EReal)
    = shapeCast S4x2048x1024 (projK (V3 m c main_v7) (V3 m c main_v4) (V3 m c main_v10)) shapeCasts_S8192x1024_S4x2048x1024 := by
  refine (W7_keep m c main_v15 (by decide) (by decide)).trans ?_
  have e2 : W5 m c (Proc.devRef .tc main_v15) = shapeCast S4x2048x1024 (W4 m c (Proc.devRef .tc main_v14)) shapeCasts_S8192x1024_S4x2048x1024 := by
    show StableHlo.after hostOps2 (W4 m c) (Proc.devRef .tc main_v15) = _
    after_results; rfl
  rw [e2, show W4 m c (Proc.devRef .tc main_v14) = _ from W4_arr m c 3, proj1_final (V3 m) c]
theorem V7_v17 : (V7 m c main_v17 : S4x2048x1024.Idx → EReal)
    = shapeCast S4x2048x1024 (projK (V5 m c main_v8) (V5 m c main_v5) (V5 m c main_v11)) shapeCasts_S8192x1024_S4x2048x1024 := by
  have e2 : W7 m c (Proc.devRef .tc main_v17) = shapeCast S4x2048x1024 (W6 m c (Proc.devRef .tc main_v16)) shapeCasts_S8192x1024_S4x2048x1024 := by
    show StableHlo.after hostOps3 (W6 m c) (Proc.devRef .tc main_v17) = _
    after_results; rfl
  refine e2.trans ?_
  rw [show W6 m c (Proc.devRef .tc main_v16) = _ from W6_arr m c 3, proj2_final (V5 m) c]
/-- The mask's change of format is the identity on the extended reals, and no earlier item writes the mask. -/
theorem V7_v18 : (V7 m c main_v18 : S1x2048x2048.Idx → EReal) = m ((c : Thread nD τ).loc main_arg3) := by
  have e2 : W7 m c (Proc.devRef .tc main_v18) = W6 m c (Proc.devRef .tc main_arg3) := by
    show StableHlo.after hostOps3 (W6 m c) (Proc.devRef .tc main_v18) = _
    after_results; rfl
  refine e2.trans ?_
  exact (W6_of_ne m c main_arg3 (by decide)).trans <| (StableHlo.after_of_writes_sub hostOps2 _ hostOps2_writes (by decide)).trans <|
    (W4_of_ne m c main_arg3 (by decide)).trans <| (StableHlo.after_of_writes_sub hostOps1 _ hostOps1_writes (by decide)).trans <|
    (W2_of_ne m c main_arg3 (by decide)).trans <| (StableHlo.after_of_writes_sub hostOps0 _ hostOps0_writes (by decide)).trans rfl

/-! ## The result array is the specification's function of the arguments -/

theorem kernel_value :
    (dat3 (V7 m) c).arrAt 4 cfg3.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (attn_final (V7 m) c).trans ?_
  refine kernel_shape_is_G _ _ _ _ _ _ _ _ _ _
    (V1 m c main_v6) (V3 m c main_v7) (V5 m c main_v8) (V1 m c main_v3) (V3 m c main_v4) (V5 m c main_v5)
    (V1 m c main_v9) (V3 m c main_v10) (V5 m c main_v11) _ _ _ _ ?_ ?_ ?_ ?_ ?_ ?_ ?_ ?_ ?_ ?_ ?_ ?_ ?_
  · intro b s d; rw [V1_v6]; exact rows_at _ b s d
  · intro b s d
    rw [show (V3 m c main_v7 : S8192x1024.Idx → EReal) = V1 m c main_v7 from W3_keep m c main_v7 (by decide) (by decide), V1_v7]
    exact rows_at _ b s d
  · intro b s d
    rw [show (V5 m c main_v8 : S8192x1024.Idx → EReal) = V1 m c main_v8 from (W5_keep m c main_v8 (by decide) (by decide)).trans (W3_keep m c main_v8 (by decide) (by decide)), V1_v8]
    exact rows_at _ b s d
  · intro d e; rw [V1_v3]; exact weight_at _ d e
  · intro d e
    rw [show (V3 m c main_v4 : S1024x1024.Idx → EReal) = V1 m c main_v4 from W3_keep m c main_v4 (by decide) (by decide), V1_v4]
    exact weight_at _ d e
  · intro d e
    rw [show (V5 m c main_v5 : S1024x1024.Idx → EReal) = V1 m c main_v5 from (W5_keep m c main_v5 (by decide) (by decide)).trans (W3_keep m c main_v5 (by decide) (by decide)), V1_v5]
    exact weight_at _ d e
  · intro e; rw [V1_v9]; exact bias_at _ e
  · intro e
    rw [show (V3 m c main_v10 : S1x1024.Idx → EReal) = V1 m c main_v10 from W3_keep m c main_v10 (by decide) (by decide), V1_v10]
    exact bias_at _ e
  · intro e
    rw [show (V5 m c main_v11 : S1x1024.Idx → EReal) = V1 m c main_v11 from (W5_keep m c main_v11 (by decide) (by decide)).trans (W3_keep m c main_v11 (by decide) (by decide)), V1_v11]
    exact bias_at _ e
  · intro b s e; rw [V7_v13]; exact batches_at _ b s e
  · intro b s e; rw [V7_v15]; exact batches_at _ b s e
  · intro b s e; rw [V7_v17]; exact batches_at _ b s e
  · intro p r; rw [V7_v18]

end Glue

end Cert.KernelIdeal.Hand

end
-- ==== Proof.RefIsSpec.lean ====
/-
  The reference computes the specification: read element by element, its result is `G` of its ten arguments.

  Each stage of the reference is read at an index whose coordinates are variables of the literal ranges
  (batch below 4, row below 2048, feature below 1024): the three fused projections `max (x · W + c) 0`, the rectified
  scores `max (P_q · P_kᵀ) 0`, and the result `max ((scores / √1024 + mask) · P_v) 0`. The reshape of a weight
  `[1, 1, 1024, 1024] → [1024, 1024]` reads `W(0, 0, d, e)` at `(d, e)`: `(d · 1024 + e) / 1024 % 1024 = d` and
  `(d · 1024 + e) % 1024 = e`. No arithmetic law is used: the two sides are the same expression.
-/
import proofs.«147016_j57062935495338_2_alg».proof.Proof.Gen.ReferenceIdeal.Read
import proofs.«147016_j57062935495338_2_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx
  Cert.AttnSpec

/-! ## The three projections -/

theorem lidx_q (b : Fin 4) (s : Fin 2048) (e d : Fin 1024) : lidx_main_v3 (ix3 b s e) d = ix3 b s d :=
  funext fun a => by match a with | ⟨0, _⟩ => rfl | ⟨1, _⟩ => rfl | ⟨2, _⟩ => rfl
theorem ridx_q (b : Fin 4) (s : Fin 2048) (e d : Fin 1024) : ridx_main_v3 (ix3 b s e) d = ix2 d e :=
  funext fun a => by match a with | ⟨0, _⟩ => rfl | ⟨1, _⟩ => rfl
theorem idx_w0 (d e : Fin 1024) : idx_main_v0 (ix2 d e) = ix4 (0 : Fin 1) (0 : Fin 1) d e :=
  funext fun a => Fin.ext (by
    have hd : d.val < 1024 := d.isLt
    have he : e.val < 1024 := e.isLt
    match a with
    | ⟨0, _⟩ => rfl
    | ⟨1, _⟩ => rfl
    | ⟨2, _⟩ => show (d.val * 1024 + e.val) / 1024 % 1024 = d.val; omega
    | ⟨3, _⟩ => show (d.val * 1024 + e.val) % 1024 = e.val; omega)
theorem idx_bias_q (b : Fin 4) (s : Fin 2048) (e : Fin 1024) : idx_main_v4 (idx_main_v5 (ix3 b s e)) = ix1 e :=
  funext fun a => by match a with | ⟨0, _⟩ => rfl

set_option maxHeartbeats 400000 in
/-- The reference's fused projection of `q` at an element is the specification's. -/
theorem proj_q (x : FVec Ideal ⟨3, ![4, 2048, 1024]⟩ .f32) (W : FVec Ideal ⟨4, ![1, 1, 1024, 1024]⟩ .f32) (c : FVec Ideal ⟨1, ![1024]⟩ .f32) (b : Fin 4) (s : Fin 2048) (e : Fin 1024) :
    val_main_v7 (F := Ideal) x W c (ix3 b s e) = proj x W c b s e := by
  rw [val_main_v7_apply, val_main_v6_apply, val_main_v3_apply, val_main_v5_apply, val_main_v4_apply,
    val_main_call0_v0_apply, val_main_call0_cst_apply]
  simp only [val_main_v0_apply, lidx_q, ridx_q, idx_w0, idx_bias_q, Ideal.maximumf_def, Ideal.addf_def,
    Ideal.ofBits_def]
  rfl

theorem lidx_k (b : Fin 4) (s : Fin 2048) (e d : Fin 1024) : lidx_main_v8 (ix3 b s e) d = ix3 b s d :=
  funext fun a => by match a with | ⟨0, _⟩ => rfl | ⟨1, _⟩ => rfl | ⟨2, _⟩ => rfl
theorem ridx_k (b : Fin 4) (s : Fin 2048) (e d : Fin 1024) : ridx_main_v8 (ix3 b s e) d = ix2 d e :=
  funext fun a => by match a with | ⟨0, _⟩ => rfl | ⟨1, _⟩ => rfl
theorem idx_w1 (d e : Fin 1024) : idx_main_v1 (ix2 d e) = ix4 (0 : Fin 1) (0 : Fin 1) d e :=
  funext fun a => Fin.ext (by
    have hd : d.val < 1024 := d.isLt
    have he : e.val < 1024 := e.isLt
    match a with
    | ⟨0, _⟩ => rfl
    | ⟨1, _⟩ => rfl
    | ⟨2, _⟩ => show (d.val * 1024 + e.val) / 1024 % 1024 = d.val; omega
    | ⟨3, _⟩ => show (d.val * 1024 + e.val) % 1024 = e.val; omega)
theorem idx_bias_k (b : Fin 4) (s : Fin 2048) (e : Fin 1024) : idx_main_v9 (idx_main_v10 (ix3 b s e)) = ix1 e :=
  funext fun a => by match a with | ⟨0, _⟩ => rfl

set_option maxHeartbeats 400000 in
/-- The reference's fused projection of `k` at an element is the specification's. -/
theorem proj_k (x : FVec Ideal ⟨3, ![4, 2048, 1024]⟩ .f32) (W : FVec Ideal ⟨4, ![1, 1, 1024, 1024]⟩ .f32) (c : FVec Ideal ⟨1, ![1024]⟩ .f32) (b : Fin 4) (s : Fin 2048) (e : Fin 1024) :
    val_main_v12 (F := Ideal) x W c (ix3 b s e) = proj x W c b s e := by
  rw [val_main_v12_apply, val_main_v11_apply, val_main_v8_apply, val_main_v10_apply, val_main_v9_apply,
    val_main_call1_v0_apply, val_main_call1_cst_apply]
  simp only [val_main_v1_apply, lidx_k, ridx_k, idx_w1, idx_bias_k, Ideal.maximumf_def, Ideal.addf_def,
    Ideal.ofBits_def]
  rfl

theorem lidx_v (b : Fin 4) (s : Fin 2048) (e d : Fin 1024) : lidx_main_v13 (ix3 b s e) d = ix3 b s d :=
  funext fun a => by match a with | ⟨0, _⟩ => rfl | ⟨1, _⟩ => rfl | ⟨2, _⟩ => rfl
theorem ridx_v (b : Fin 4) (s : Fin 2048) (e d : Fin 1024) : ridx_main_v13 (ix3 b s e) d = ix2 d e :=
  funext fun a => by match a with | ⟨0, _⟩ => rfl | ⟨1, _⟩ => rfl
theorem idx_w2 (d e : Fin 1024) : idx_main_v2 (ix2 d e) = ix4 (0 : Fin 1) (0 : Fin 1) d e :=
  funext fun a => Fin.ext (by
    have hd : d.val < 1024 := d.isLt
    have he : e.val < 1024 := e.isLt
    match a with
    | ⟨0, _⟩ => rfl
    | ⟨1, _⟩ => rfl
    | ⟨2, _⟩ => show (d.val * 1024 + e.val) / 1024 % 1024 = d.val; omega
    | ⟨3, _⟩ => show (d.val * 1024 + e.val) % 1024 = e.val; omega)
theorem idx_bias_v (b : Fin 4) (s : Fin 2048) (e : Fin 1024) : idx_main_v14 (idx_main_v15 (ix3 b s e)) = ix1 e :=
  funext fun a => by match a with | ⟨0, _⟩ => rfl

set_option maxHeartbeats 400000 in
/-- The reference's fused projection of `v` at an element is the specification's. -/
theorem proj_v (x : FVec Ideal ⟨3, ![4, 2048, 1024]⟩ .f32) (W : FVec Ideal ⟨4, ![1, 1, 1024, 1024]⟩ .f32) (c : FVec Ideal ⟨1, ![1024]⟩ .f32) (b : Fin 4) (s : Fin 2048) (e : Fin 1024) :
    val_main_v17 (F := Ideal) x W c (ix3 b s e) = proj x W c b s e := by
  rw [val_main_v17_apply, val_main_v16_apply, val_main_v13_apply, val_main_v15_apply, val_main_v14_apply,
    val_main_call2_v0_apply, val_main_call2_cst_apply]
  simp only [val_main_v2_apply, lidx_v, ridx_v, idx_w2, idx_bias_v, Ideal.maximumf_def, Ideal.addf_def,
    Ideal.ofBits_def]
  rfl

/-! ## The scores -/

theorem lidx_score (b : Fin 4) (p r : Fin 2048) (e : Fin 1024) : lidx_main_v18 (ix3 b p r) e = ix3 b p e :=
  funext fun a => by match a with | ⟨0, _⟩ => rfl | ⟨1, _⟩ => rfl | ⟨2, _⟩ => rfl
theorem ridx_score (b : Fin 4) (p r : Fin 2048) (e : Fin 1024) : ridx_main_v18 (ix3 b p r) e = ix3 b r e :=
  funext fun a => by match a with | ⟨0, _⟩ => rfl | ⟨1, _⟩ => rfl | ⟨2, _⟩ => rfl

set_option maxHeartbeats 400000 in
/-- The reference's rectified score at `(b, p, r)` is the specification's. -/
theorem score_eq (q k : FVec Ideal ⟨3, ![4, 2048, 1024]⟩ .f32) (Wq Wk : FVec Ideal ⟨4, ![1, 1, 1024, 1024]⟩ .f32) (bq bk : FVec Ideal ⟨1, ![1024]⟩ .f32) (b : Fin 4) (p r : Fin 2048) :
    val_main_v19 (F := Ideal) q k Wq Wk bq bk (ix3 b p r) = score q k Wq Wk bq bk b p r := by
  rw [val_main_v19_apply, val_main_v18_apply, val_main_call3_v0_apply, val_main_call3_cst_apply]
  simp only [lidx_score, ridx_score, proj_q, proj_k, Ideal.maximumf_def, Ideal.ofBits_def]
  rfl

/-! ## The result -/

theorem lidx_out (b : Fin 4) (p : Fin 2048) (e : Fin 1024) (r : Fin 2048) : lidx_main_v25 (ix3 b p e) r = ix3 b p r :=
  funext fun a => by match a with | ⟨0, _⟩ => rfl | ⟨1, _⟩ => rfl | ⟨2, _⟩ => rfl
theorem ridx_out (b : Fin 4) (p : Fin 2048) (e : Fin 1024) (r : Fin 2048) : ridx_main_v25 (ix3 b p e) r = ix3 b r e :=
  funext fun a => by match a with | ⟨0, _⟩ => rfl | ⟨1, _⟩ => rfl | ⟨2, _⟩ => rfl
theorem idx_mask (b : Fin 4) (p r : Fin 2048) : idx_main_v23 (ix3 b p r) = ix3 (0 : Fin 1) p r :=
  funext fun a => by match a with | ⟨0, _⟩ => rfl | ⟨1, _⟩ => rfl | ⟨2, _⟩ => rfl

set_option maxHeartbeats 400000 in
/-- The scaled and masked logit at `(b, p, r)`. -/
theorem logit_eq (q k : FVec Ideal ⟨3, ![4, 2048, 1024]⟩ .f32) (mask : FVec Ideal ⟨3, ![1, 2048, 2048]⟩ .f32) (Wq Wk : FVec Ideal ⟨4, ![1, 1, 1024, 1024]⟩ .f32) (bq bk : FVec Ideal ⟨1, ![1024]⟩ .f32) (b : Fin 4) (p r : Fin 2048) :
    val_main_v24 (F := Ideal) q k mask Wq Wk bq bk (ix3 b p r)
      = Ideal.div (score q k Wq Wk bq bk b p r) (Ideal.sqrt dW) + mask (ix3 (0 : Fin 1) p r) := by
  rw [val_main_v24_apply, val_main_v22_apply, val_main_v23_apply, val_main_v21_apply, val_main_v20_apply, val_main_cst_apply,
    score_eq, idx_mask]
  simp only [Ideal.addf_def, Ideal.hostDivf_def, Ideal.hostUnary_sqrt_def, Ideal.ofBits_def]

set_option maxHeartbeats 400000 in
/-- The reference's result at `(b, p, e)` is the specification's. -/
theorem out_eq (q k v : FVec Ideal ⟨3, ![4, 2048, 1024]⟩ .f32) (mask : FVec Ideal ⟨3, ![1, 2048, 2048]⟩ .f32) (Wq Wk Wv : FVec Ideal ⟨4, ![1, 1, 1024, 1024]⟩ .f32) (bq bk bv : FVec Ideal ⟨1, ![1024]⟩ .f32) (b : Fin 4) (p : Fin 2048) (e : Fin 1024) :
    val_main_v26 (F := Ideal) q k v mask Wq Wk Wv bq bk bv (ix3 b p e) = attn q k v mask Wq Wk Wv bq bk bv b p e := by
  rw [val_main_v26_apply, val_main_v25_apply, val_main_call4_v0_apply, val_main_call4_cst_apply]
  simp only [lidx_out, ridx_out, logit_eq, proj_v, Ideal.maximumf_def, Ideal.ofBits_def]
  rfl

/-- THE REFERENCE IS THE SPECIFICATION. -/
theorem ref_is_spec (q k v : FVec Ideal ⟨3, ![4, 2048, 1024]⟩ .f32) (mask : FVec Ideal ⟨3, ![1, 2048, 2048]⟩ .f32) (Wq Wk Wv : FVec Ideal ⟨4, ![1, 1, 1024, 1024]⟩ .f32) (bq bk bv : FVec Ideal ⟨1, ![1024]⟩ .f32) :
    val_main_v26 (F := Ideal) q k v mask Wq Wk Wv bq bk bv = G q k v mask Wq Wk Wv bq bk bv := by
  funext i
  obtain ⟨b, p, e, rfl⟩ : ∃ (b : Fin 4) (p : Fin 2048) (e : Fin 1024), i = ix3 b p e := ⟨i 0, i 1, i 2, eq_ix3 i⟩
  rw [out_eq, G_apply]

end Cert.ReferenceIdeal.RefSpec

end
-- ==== Proof.lean ====
/-
  Fused attention with three linear projections against its plain reference, on the extended reals.

  Both programs compute, for batch b, query row p and feature e,
      out(b, p, e) = max (Σ_r (S(b, p, r) / √1024 + mask(p, r)) · P_v(b, r, e)) 0,
  where P_x(b, s, e) = max (Σ_d x(b, s, d) · W_x(d, e) + bias_x(e)) 0 is a projection and
  S(b, p, r) = max (Σ_e P_q(b, p, e) · P_k(b, r, e)) 0 a score. The reference does it in whole-array operations. The
  kernel flattens the batches to 8192 rows, projects them in row tiles of 1024, reshapes back, and then, per batch and
  query tile of 1024 rows, sweeps the 2048 keys in four tiles of 512, adding each tile's contribution into an
  accumulator that starts at zero and is clamped at zero into the result after the last tile; it multiplies by the
  constant 2⁻⁵ where the reference divides by √1024.

  Two facts join the sides, and neither needs the inputs to be finite: √1024 = 32, so dividing by it is multiplying by
  2⁻⁵ on every extended real; and a sum over 2048 keys is the sum of its four consecutive quarters, addition on the
  extended reals being commutative and associative. The changes of float format on the kernel's side are the identity
  on the extended reals.

  The frames (each program runs to the end, faults nowhere, leaves its arguments as launched) come from the walk of
  @main's eight items (Proof/Segments.lean and its word-level twin) and from the reference's run; the kernel's result
  array is read in Proof/KernelValue.lean, the reference's in Proof/RefIsSpec.lean, both as the specification
  Proof/Spec.lean states it. The idealization rewrote nothing, so there is nothing to preserve.
-/
import proofs.«147016_j57062935495338_2_alg».proof.Defs
import proofs.«147016_j57062935495338_2_alg».proof.Proof.Gen.Kernel
import proofs.«147016_j57062935495338_2_alg».proof.Proof.Gen.KernelIdeal
import proofs.«147016_j57062935495338_2_alg».proof.Proof.Gen.ReferenceIdeal
import proofs.«147016_j57062935495338_2_alg».proof.Proof.Gen.ReferenceIdeal.Run
import proofs.«147016_j57062935495338_2_alg».proof.Proof.Gen.ReferenceIdeal.Read
import proofs.«147016_j57062935495338_2_alg».proof.Proof.Gen.Pre_finite_inputs
import proofs.«147016_j57062935495338_2_alg».proof.Proof.SegmentsW
import proofs.«147016_j57062935495338_2_alg».proof.Proof.KernelValue
import proofs.«147016_j57062935495338_2_alg».proof.Proof.RefIsSpec
import Idealize.ShloMosaic.Adequacy
import Idealize.ShloMosaic.Init

noncomputable section

namespace Cert.Proof

open Idealize.ShloMosaic Idealize.SL.Sem

/-- The word-level program runs to the end and keeps its arguments. -/
theorem frame_kernel [Cert.Kernel.Facts] [Cert.Pre_finite_inputs.Facts] : Cert.frame_Kernel :=
  fun m ρ _ => Cert.Kernel.Hand.frame m ρ

/-- So does the program read on the extended reals. -/
theorem frame_kernel_ideal [Cert.KernelIdeal.Facts] [Cert.Pre_finite_inputs.Facts] : Cert.frame_KernelIdeal :=
  fun m ρ _ => Cert.KernelIdeal.Hand.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the ten arguments both programs end with the result array at the specification's
    function of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.AttnSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(Cert.KernelIdeal.Hand.result_at m r.2.mem c (h c)).trans (Cert.KernelIdeal.Hand.kernel_value m c),
        Cert.KernelIdeal.Hand.args_kept m r.2.mem c (h c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9]
    exact (Cert.ReferenceIdeal.Read.val_main_v26_eq _ _ _ _ _ _ _ _ _ _).trans (Cert.ReferenceIdeal.RefSpec.ref_is_spec _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
